-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part4 {F : FTy → Type} [FloatOps F] (main_arg14 : FVec F S1024x1024 .f32) (main_v63 : IVec S_ 1) (main_v67 : IVec S_ 1) : IVec S_ 1 :=
  let main_v68 : IVec S_ 1 := andi main_v63 main_v67
  let main_v69 : FVec F S1024x1024 .f32 := Host.absf main_arg14
  let main_cst_26 : FVec F S_ .f32 := constant S_ .f32 0x7F800000#32
  let main_v70 : FVec F S1024x1024 .f32 := broadcastInDim S1024x1024 ![] bcast_S_S1024x1024 main_cst_26
  let main_v71 : IVec S1024x1024 1 := cmpf .olt main_v69 main_v70
  let main_c_27 : IVec S_ 1 := constantI S_ 1 1#1
  let main_v72 : IVec S_ 1 := (fun x v => Host.reduce IntOp.andi x v reducesTo_S1024x1024_S_d0_1 h_S_) main_v71 main_c_27
  let main_v73 : IVec S_ 1 := andi main_v68 main_v72
  main_v73

def fn_part3 {F : FTy → Type} [FloatOps F] (main_arg11 : FVec F S1024x1024 .f32) (main_arg12 : FVec F S1024x1024 .f32) (main_arg13 : FVec F S1024 .f32) (main_arg14 : FVec F S1024x1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x1024 .f32 := Host.absf main_arg11
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S1024x1024 .f32 := Host.absf main_arg12
  let main_cst_22 : FVec F S_ .f32 := constant S_ .f32 0x7F800000#32
  let main_v60 : FVec F S1024x1024 .f32 := broadcastInDim S1024x1024 ![] bcast_S_S1024x1024 main_cst_22
  let main_v61 : IVec S1024x1024 1 := cmpf .olt main_v59 main_v60
  let main_c_23 : IVec S_ 1 := constantI S_ 1 1#1
  let main_v62 : IVec S_ 1 := (fun x v => Host.reduce IntOp.andi x v reducesTo_S1024x1024_S_d0_1 h_S_) main_v61 main_c_23
  let main_v63 : IVec S_ 1 := andi main_v58 main_v62
  let main_v64 : FVec F S1024 .f32 := Host.absf main_arg13
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_arg14 main_v63 main_v67

def fn_part2 {F : FTy → Type} [FloatOps F] (main_arg7 : FVec F S1024 .f32) (main_arg8 : FVec F S1024x1024 .f32) (main_arg9 : FVec F S1024x1024 .f32) (main_arg10 : FVec F S1024 .f32) (main_arg11 : FVec F S1024x1024 .f32) (main_arg12 : FVec F S1024x1024 .f32) (main_arg13 : FVec F S1024 .f32) (main_arg14 : FVec F S1024x1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_v48 main_v49 main_v50

def fn_part1 {F : FTy → Type} [FloatOps F] (main_arg4 : FVec F S1024 .f32) (main_arg5 : FVec F S1024x1024 .f32) (main_arg6 : FVec F S1024x1024 .f32) (main_arg7 : FVec F S1024 .f32) (main_arg8 : FVec F S1024x1024 .f32) (main_arg9 : FVec F S1024x1024 .f32) (main_arg10 : FVec F S1024 .f32) (main_arg11 : FVec F S1024x1024 .f32) (main_arg12 : FVec F S1024x1024 .f32) (main_arg13 : FVec F S1024 .f32) (main_arg14 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S4096x1024 .f32) (main_arg1 : FVec F S4096x1024 .f32) (main_arg2 : FVec F S4096x1024 .f32) (main_arg3 : FVec F S1024x1024 .f32) (main_arg4 : FVec F S1024 .f32) (main_arg5 : FVec F S1024x1024 .f32) (main_arg6 : FVec F S1024x1024 .f32) (main_arg7 : FVec F S1024 .f32) (main_arg8 : FVec F S1024x1024 .f32) (main_arg9 : FVec F S1024x1024 .f32) (main_arg10 : FVec F S1024 .f32) (main_arg11 : FVec F S1024x1024 .f32) (main_arg12 : FVec F S1024x1024 .f32) (main_arg13 : FVec F S1024 .f32) (main_arg14 : FVec F S1024x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S4096x1024 : Shape := ⟨2, ![4096, 1024]⟩
abbrev S1024x1024 : Shape := ⟨2, ![1024, 1024]⟩
abbrev S1024 : Shape := ⟨1, ![1024]⟩
abbrev S4096x2048 : Shape := ⟨2, ![4096, 2048]⟩
abbrev S4096 : Shape := ⟨1, ![4096]⟩
abbrev S1x4096 : Shape := ⟨2, ![1, 4096]⟩
abbrev S256x1024 : Shape := ⟨2, ![256, 1024]⟩
abbrev S256x2048 : Shape := ⟨2, ![256, 2048]⟩
abbrev S256x4096 : Shape := ⟨2, ![256, 4096]⟩

abbrev nBuf : Space → Nat
  | .hbm => 23
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024x1024, .f32⟩
  | .hbm, ⟨13, _⟩ => ⟨S1024, .f32⟩
  | .hbm, ⟨14, _⟩ => ⟨S1024x1024, .f32⟩
  | .hbm, ⟨15, _⟩ => ⟨S4096x1024, .f32⟩
  | .hbm, ⟨16, _⟩ => ⟨S4096x1024, .f32⟩
  | .hbm, ⟨17, _⟩ => ⟨S4096x2048, .f32⟩
  | .hbm, ⟨18, _⟩ => ⟨S4096x2048, .bf16⟩
  | .hbm, ⟨19, _⟩ => ⟨S4096, .f32⟩
  | .hbm, ⟨20, _⟩ => ⟨S1x4096, .f32⟩
  | .hbm, ⟨21, _⟩ => ⟨S4096x1024, .f32⟩
  | .hbm, ⟨22, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S4096x2048, .bf16⟩
  | .local _ .vmem, ⟨7, _⟩ => ⟨S1x4096, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6_0 : Ref sig .tc := ⟨.hbm, 21, rfl⟩
abbrev main_v6_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  concatenates_S1024x1024_S1024x1024_S1024x1024_S1024x1024_S4096x1024_d0 : Shape.Concatenates [S1024x1024, S1024x1024, S1024x1024, S1024x1024] S4096x1024 0
  concatenates_S4096x1024_S4096x1024_S4096x2048_d1 : Shape.Concatenates [S4096x1024, S4096x1024] S4096x2048 1
  bitsLt_bf16_f32 : FTy.bits .bf16 < FTy.bits .f32
  concatenates_S1024_S1024_S1024_S1024_S4096_d0 : Shape.Concatenates [S1024, S1024, S1024, S1024] S4096 0
  shapeCasts_S4096_S1x4096 : S4096.ShapeCasts S1x4096
  inb_S256x1024_S256x1024_0_0 : ∀ a, (![0, 0] : Fin 2 → Nat) a + S256x1024.size a ≤ S256x1024.size a
  h_S256x1024 : 0 < S256x1024.numel
  concatenates_S256x1024_S256x1024_S256x2048_d1 : Shape.Concatenates [S256x1024, S256x1024] S256x2048 1
  inb_S4096x2048_S4096x2048_0_0 : ∀ a, (![0, 0] : Fin 2 → Nat) a + S4096x2048.size a ≤ S4096x2048.size a
  h_S4096x2048 : 0 < S4096x2048.numel
  shapeCasts_S4096x2048_S4096x2048 : S4096x2048.ShapeCasts S4096x2048
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x2048_S4096x2048_S256x4096_1_1_0_0_n_n_wf : DotDims.WF S256x2048 S4096x2048 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .f32 = 32 ∨ (Rect.block (s := S4096x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S4096x1024.size a
  hwx0_2 : ∀ i : grid0.Coords, EltTy.bits .f32 = 32 ∨ (Rect.block (s := S4096x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x2048.size a ≤ S4096x2048.size a
  hwx0_3 : ∀ i : grid0.Coords, EltTy.bits .bf16 = 32 ∨ (Rect.block (s := S4096x2048) S4096x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S4096x1024.size a
  hwx0_5 : ∀ i : grid0.Coords, EltTy.bits .f32 = 32 ∨ (Rect.block (s := S4096x1024) S256x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S4096x1024.size a
  hwx0_6 : ∀ i : grid0.Coords, EltTy.bits .f32 = 32 ∨ (Rect.block (s := S4096x1024) S256x1024.size (cc0_transform_6 i) (hinb0_6 i)).WholeWords (EltTy.packing .f32)

variable [Facts₀]

def dot_S256x2048_S4096x2048_S256x4096_1_1_0_0_n_n : DotDims S256x2048 S4096x2048 S256x4096 where
  lhsContracting := [1]
  rhsContracting := [1]
  lhsNonContracting := [0]
  rhsNonContracting := [0]
  lhsBatch := []
  rhsBatch := []
  wf := dot_S256x2048_S4096x2048_S256x4096_1_1_0_0_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S4096x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6_0) S256x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6_1) S256x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S1024x1024 : Shape := ⟨2, ![1024, 1024]⟩
abbrev S1024 : Shape := ⟨1, ![1024]⟩
abbrev S4096 : Shape := ⟨1, ![4096]⟩
abbrev S1024x4096 : Shape := ⟨2, ![1024, 4096]⟩
abbrev S4096x4096 : Shape := ⟨2, ![4096, 4096]⟩
abbrev S1x4096 : Shape := ⟨2, ![1, 4096]⟩
abbrev S_ : Shape := ⟨0, ![]⟩

abbrev nBuf : Space → Nat
  | .hbm => 60
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024x1024, .f32⟩
  | .hbm, ⟨13, _⟩ => ⟨S1024, .f32⟩
  | .hbm, ⟨14, _⟩ => ⟨S1024x1024, .f32⟩
  | .hbm, ⟨15, _⟩ => ⟨S4096x1024, .f32⟩
  | .hbm, ⟨16, _⟩ => ⟨S4096x1024, .f32⟩
  | .hbm, ⟨17, _⟩ => ⟨S4096, .f32⟩
  | .hbm, ⟨18, _⟩ => ⟨S1024x4096, .f32⟩
  | .hbm, ⟨19, _⟩ => ⟨S4096x4096, .f32⟩
  | .hbm, ⟨20, _⟩ => ⟨S1024x4096, .f32⟩
  | .hbm, ⟨21, _⟩ => ⟨S4096x4096, .f32⟩
  | .hbm, ⟨22, _⟩ => ⟨S4096x4096, .f32⟩
  | .hbm, ⟨23, _⟩ => ⟨S1x4096, .f32⟩
  | .hbm, ⟨24, _⟩ => ⟨S4096x4096, .f32⟩
  | .hbm, ⟨25, _⟩ => ⟨S4096x4096, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst : Ref sig .tc := ⟨.hbm, 32, rfl⟩
abbrev main_v17 : Ref sig .tc := ⟨.hbm, 33, rfl⟩
abbrev main_v18 : Ref sig .tc := ⟨.hbm, 34, rfl⟩
abbrev main_cst_0 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_1 : Ref sig .tc := ⟨.hbm, 40, rfl⟩
abbrev main_v23 : Ref sig .tc := ⟨.hbm, 41, rfl⟩
abbrev main_v24 : Ref sig .tc := ⟨.hbm, 42, rfl⟩
abbrev main_cst_2 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_3 : Ref sig .tc := ⟨.hbm, 48, rfl⟩
abbrev main_v29 : Ref sig .tc := ⟨.hbm, 49, rfl⟩
abbrev main_v30 : Ref sig .tc := ⟨.hbm, 50, rfl⟩
abbrev main_cst_4 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩

abbrev nD : Nat := 1
abbrev τ : Topo := Topo.v7x

variable {F : FTy → Type} [FloatOps F]

class Facts₀ : Prop where
  concatenates_S1024x1024_S1024x1024_S1024x1024_S1024x1024_S4096x1024_d0 : Shape.Concatenates [S1024x1024, S1024x1024, S1024x1024, S1024x1024] S4096x1024 0
  concatenates_S1024_S1024_S1024_S1024_S4096_d0 : Shape.Concatenates [S1024, S1024, S1024, S1024] S4096 0
  transposes_S4096x1024_S1024x4096_1_0 : S4096x1024.Transposes [1, 0] S1024x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  slices_S4096x4096_S4096x1024_0_0 : S4096x4096.Slices ![0, 0] S4096x1024
  slices_S4096x4096_S4096x1024_0_1024 : S4096x4096.Slices ![0, 1024] S4096x1024
  slices_S4096x4096_S4096x1024_0_2048 : S4096x4096.Slices ![0, 2048] S4096x1024
  slices_S4096x4096_S4096x1024_0_3072 : S4096x4096.Slices ![0, 3072] S4096x1024
  bcast_S_S4096x1024 : S_.BroadcastsInDim S4096x1024 (![] : Fin 0 → Fin S4096x1024.rank)
  dot_S4096x1024_S1024x4096_S4096x4096_1_0_0_1_n_n_wf : DotDims.WF S4096x1024 S1024x4096 S4096x4096 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.KernelFrame.lean ====
/-
  The frame of `Kernel`: every weakly fair execution of @main terminates, nothing faults, and the fifteen argument
  arrays end as they were launched — together with what the run leaves in the two result arrays, block by block.

  @main is six host operations (three row-wise concatenations of the gate weights and biases, one column-wise
  concatenation [W | U], a change of format, a reshape of the bias to one row) followed by ONE region over a grid of
  16 points. At point `t` the pipeline stages rows `256·t … 256·t+255` of `incoming`, `old_h`, `old_c` (windows 0–2),
  the whole `[W | U]` and the whole bias row (windows 3–4, fetched once, at the first point), runs the body, and writes
  back rows `256·t … 256·t+255` of `new_h` and `new_c` (windows 5–6).
  The body loads the five input blocks whole, computes, and stores each output block whole, once; so after the body an
  output's staging buffer holds ONE payload of the five input blocks (`hBlock`, `cBlock`), whatever it held before,
  and every input's buffer is as found. That is all the pipeline's proof data has to say; the library's frame run
  (`Pipeline.θ_run_frame`) does the rest.
-/
import proofs.«129482_j47347719471523_2_alg».proof.Proof.Gen.Kernel.Launch
import proofs.«129482_j47347719471523_2_alg».proof.Proof.Gen.Kernel.Skeleton
import proofs.«129482_j47347719471523_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the six host operations. -/
abbrev entry (c : Dev nD) (b : Ref sig .tc) : Buf (Elt F) ((c : Thread nD τ).loc b) :=
  StableHlo.after (List.flatten [hostOps0]) (fun b => m (c, b)) b

/-- None of the six host operations allocates. -/
theorem hostOps0_fresh : (hostOps0 : List (HloOp τ sig (Elt F))).Forall fun op => op.fresh = ∅ := by
  simp only [List.Forall]; repeat' constructor

/-- @main is its host operations, then the region. -/
theorem main_to_region (𝒱₀ : Variants) :
    Pipeline.HMain (Ix := Unit) (Name := ℕ) (U := UR sig nD τ) (Lvl := ℕ) cfgs 0 defs₀ 𝒱₀ m (main (F := F)) (entry m) :=
  Pipeline.hmain_prefixes cfgs 0 defs₀ 𝒱₀ m main [hostOps0] (by simp only [List.Forall]; exact hostOps0_sub)
    (by simp only [List.Forall]; exact hostOps0_fresh) main_chain

/-- No host operation before the region writes argument 0: the region finds it as launched. -/
theorem entry_arg0 (c : Dev nD) : entry m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.unary_writes, StableHlo.binary_writes, StableHlo.reshape_writes, StableHlo.nary_writes, Finset.mem_singleton]
    repeat' apply And.intro
    all_goals exact StableHlo.devRef_ne_of_ne (by decide)))
/-- No host operation before the region writes argument 1: the region finds it as launched. -/
theorem entry_arg1 (c : Dev nD) : entry m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.unary_writes, StableHlo.binary_writes, StableHlo.reshape_writes, StableHlo.nary_writes, Finset.mem_singleton]
    repeat' apply And.intro
    all_goals exact StableHlo.devRef_ne_of_ne (by decide)))
/-- No host operation before the region writes argument 2: the region finds it as launched. -/
theorem entry_arg2 (c : Dev nD) : entry m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.unary_writes, StableHlo.binary_writes, StableHlo.reshape_writes, StableHlo.nary_writes, Finset.mem_singleton]
    repeat' apply And.intro
    all_goals exact StableHlo.devRef_ne_of_ne (by decide)))
/-- No host operation before the region writes argument 3: the region finds it as launched. -/
theorem entry_arg3 (c : Dev nD) : entry m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall, StableHlo.unary_writes, StableHlo.binary_writes, StableHlo.reshape_writes, StableHlo.nary_writes, Finset.mem_singleton]
    repeat' apply And.intro
    all_goals exact StableHlo.devRef_ne_of_ne (by decide)))
/-- No host operation before the region writes argument 4: the region finds it as launched. -/
theorem entry_arg4 (c : Dev nD) : entry m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall, StableHlo.unary_writes, StableHlo.binary_writes, StableHlo.reshape_writes, StableHlo.nary_writes, Finset.mem_singleton]
    repeat' apply And.intro
    all_goals exact StableHlo.devRef_ne_of_ne (by decide)))
/-- No host operation before the region writes argument 5: the region finds it as launched. -/
theorem entry_arg5 (c : Dev nD) : entry m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append, List.nil_append, List.Forall, StableHlo.unary_writes, StableHlo.binary_writes, StableHlo.reshape_writes, StableHlo.nary_writes, Finset.mem_singleton]
    repeat' apply And.intro
    all_goals exact StableHlo.devRef_ne_of_ne (by decide)))
/-- No host operation before the region writes argument 6: the region finds it as launched. -/
theorem entry_arg6 (c : Dev nD) : entry m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append, List.nil_append, List.Forall, StableHlo.unary_writes, StableHlo.binary_writes, StableHlo.reshape_writes, StableHlo.nary_writes, Finset.mem_singleton]
    repeat' apply And.intro
    all_goals exact StableHlo.devRef_ne_of_ne (by decide)))
/-- No host operation before the region writes argument 7: the region finds it as launched. -/
theorem entry_arg7 (c : Dev nD) : entry m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append, List.nil_append, List.Forall, StableHlo.unary_writes, StableHlo.binary_writes, StableHlo.reshape_writes, StableHlo.nary_writes, Finset.mem_singleton]
    repeat' apply And.intro
    all_goals exact StableHlo.devRef_ne_of_ne (by decide)))
/-- No host operation before the region writes argument 8: the region finds it as launched. -/
theorem entry_arg8 (c : Dev nD) : entry m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append, List.nil_append, List.Forall, StableHlo.unary_writes, StableHlo.binary_writes, StableHlo.reshape_writes, StableHlo.nary_writes, Finset.mem_singleton]
    repeat' apply And.intro
    all_goals exact StableHlo.devRef_ne_of_ne (by decide)))
/-- No host operation before the region writes argument 9: the region finds it as launched. -/
theorem entry_arg9 (c : Dev nD) : entry m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append, List.nil_append, List.Forall, StableHlo.unary_writes, StableHlo.binary_writes, StableHlo.reshape_writes, StableHlo.nary_writes, Finset.mem_singleton]
    repeat' apply And.intro
    all_goals exact StableHlo.devRef_ne_of_ne (by decide)))
/-- No host operation before the region writes argument 10: the region finds it as launched. -/
theorem entry_arg10 (c : Dev nD) : entry m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append, List.nil_append, List.Forall, StableHlo.unary_writes, StableHlo.binary_writes, StableHlo.reshape_writes, StableHlo.nary_writes, Finset.mem_singleton]
    repeat' apply And.intro
    all_goals exact StableHlo.devRef_ne_of_ne (by decide)))
/-- No host operation before the region writes argument 11: the region finds it as launched. -/
theorem entry_arg11 (c : Dev nD) : entry m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append, List.nil_append, List.Forall, StableHlo.unary_writes, StableHlo.binary_writes, StableHlo.reshape_writes, StableHlo.nary_writes, Finset.mem_singleton]
    repeat' apply And.intro
    all_goals exact StableHlo.devRef_ne_of_ne (by decide)))
/-- No host operation before the region writes argument 12: the region finds it as launched. -/
theorem entry_arg12 (c : Dev nD) : entry m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append, List.nil_append, List.Forall, StableHlo.unary_writes, StableHlo.binary_writes, StableHlo.reshape_writes, StableHlo.nary_writes, Finset.mem_singleton]
    repeat' apply And.intro
    all_goals exact StableHlo.devRef_ne_of_ne (by decide)))
/-- No host operation before the region writes argument 13: the region finds it as launched. -/
theorem entry_arg13 (c : Dev nD) : entry m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append, List.nil_append, List.Forall, StableHlo.unary_writes, StableHlo.binary_writes, StableHlo.reshape_writes, StableHlo.nary_writes, Finset.mem_singleton]
    repeat' apply And.intro
    all_goals exact StableHlo.devRef_ne_of_ne (by decide)))
/-- No host operation before the region writes argument 14: the region finds it as launched. -/
theorem entry_arg14 (c : Dev nD) : entry m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append, List.nil_append, List.Forall, StableHlo.unary_writes, StableHlo.binary_writes, StableHlo.reshape_writes, StableHlo.nary_writes, Finset.mem_singleton]
    repeat' apply And.intro
    all_goals exact StableHlo.devRef_ne_of_ne (by decide)))

/-! ## The windows' blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-! An input window's current staging buffer holds its block at every point, fetched there or not (the two resident
    windows are fetched at the first point only, and their block index never moves), for any proof data over the
    region-entry arrays whose body leaves the block in place. -/
theorem staged0_of {c : Dev nD} (dat : Dat τ (Elt F) Unit ℕ (UR sig nD τ) ℕ cfg0 c) (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem staged1_of {c : Dev nD} (dat : Dat τ (Elt F) Unit ℕ (UR sig nD τ) ℕ cfg0 c) (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem staged2_of {c : Dev nD} (dat : Dat τ (Elt F) Unit ℕ (UR sig nD τ) ℕ cfg0 c) (hA : dat.A 2 = entry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem staged3_of {c : Dev nD} (dat : Dat τ (Elt F) Unit ℕ (UR sig nD τ) ℕ cfg0 c) (hA : dat.A 3 = entry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem staged4_of {c : Dev nD} (dat : Dat τ (Elt F) Unit ℕ (UR sig nD τ) ℕ cfg0 c) (hA : dat.A 4 = entry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-! ## The frame claim's post from the frame run's -/

/-- The three row-blocked arguments are windows' arrays, read at the end through the library's account of an input
    window; the twelve weights and biases are staged by no window and end as the region found them. -/
theorem args_kept (dats : (p : Fin 1) → (c : Dev nD) → Dat τ (Elt F) Unit ℕ (UR sig nD τ) ℕ (cfgs p) c)
    (hA : ∀ c w, (dats 0 c).A w = entry m c (Pipeline.arrRef spec0 w))
    (r : PUnit × MemSt nD τ sig (Elt F)) (h : Pipeline.FramePost cfgs dats 0 (entry m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  ⟨((h c).1 0).trans (((dats 0 c).arrAt_in 0 rfl _).trans ((hA c 0).trans (entry_arg0 m c))),
      ((h c).1 1).trans (((dats 0 c).arrAt_in 1 rfl _).trans ((hA c 1).trans (entry_arg1 m c))),
      ((h c).1 2).trans (((dats 0 c).arrAt_in 2 rfl _).trans ((hA c 2).trans (entry_arg2 m c))),
      ((h c).2 main_arg3 (Pipeline.mem_restRefs_of main_arg3 (by decide) (by decide))).trans (entry_arg3 m c),
      ((h c).2 main_arg4 (Pipeline.mem_restRefs_of main_arg4 (by decide) (by decide))).trans (entry_arg4 m c),
      ((h c).2 main_arg5 (Pipeline.mem_restRefs_of main_arg5 (by decide) (by decide))).trans (entry_arg5 m c),
      ((h c).2 main_arg6 (Pipeline.mem_restRefs_of main_arg6 (by decide) (by decide))).trans (entry_arg6 m c),
      ((h c).2 main_arg7 (Pipeline.mem_restRefs_of main_arg7 (by decide) (by decide))).trans (entry_arg7 m c),
      ((h c).2 main_arg8 (Pipeline.mem_restRefs_of main_arg8 (by decide) (by decide))).trans (entry_arg8 m c),
      ((h c).2 main_arg9 (Pipeline.mem_restRefs_of main_arg9 (by decide) (by decide))).trans (entry_arg9 m c),
      ((h c).2 main_arg10 (Pipeline.mem_restRefs_of main_arg10 (by decide) (by decide))).trans (entry_arg10 m c),
      ((h c).2 main_arg11 (Pipeline.mem_restRefs_of main_arg11 (by decide) (by decide))).trans (entry_arg11 m c),
      ((h c).2 main_arg12 (Pipeline.mem_restRefs_of main_arg12 (by decide) (by decide))).trans (entry_arg12 m c),
      ((h c).2 main_arg13 (Pipeline.mem_restRefs_of main_arg13 (by decide) (by decide))).trans (entry_arg13 m c),
      ((h c).2 main_arg14 (Pipeline.mem_restRefs_of main_arg14 (by decide) (by decide))).trans (entry_arg14 m c)⟩

/-- So a frame run is the frame claim's run. -/
theorem frame_of_run (dats : (p : Fin 1) → (c : Dev nD) → Dat τ (Elt F) Unit ℕ (UR sig nD τ) ℕ (cfgs p) c)
    (hA : ∀ c w, (dats 0 c).A w = entry m c (Pipeline.arrRef spec0 w))
    (h : θ_run defs (onTc (τ := τ) (main (F := F))) (s₀ m ρ) (Pipeline.FramePost cfgs dats 0 (entry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => args_kept m dats hA r h c) h

/-! ## The body's accesses and what it leaves -/

/-- A whole 256×1024 block, the whole [W | U], the whole bias row. -/
abbrev rBlock : Rect S256x1024 := Rect.unit (s := S256x1024) ![0, 0] S256x1024.size inb_S256x1024_S256x1024_0_0
abbrev rWU : Rect S4096x2048 := Rect.unit (s := S4096x2048) ![0, 0] S4096x2048.size inb_S4096x2048_S4096x2048_0_0
abbrev rBias : Rect S1x4096 := Rect.unit (s := S1x4096) ![0, 0] S1x4096.size inb_S1x4096_S1x4096_0_0

/-- The `new_h` block the body stores, from the blocks of `incoming`, `old_h`, `old_c`, `[W | U]` and the bias. -/
def hBlock (x0 x1 x2 : Vec F S256x1024 .f32) (x3 : Vec F S4096x2048 .bf16) (x4 : Vec F S1x4096 .f32) : Vec F S256x1024 .f32 :=
  View.canon [⟨rBlock, k0_pay3 (View.ld x0 rBlock) (View.ld x1 rBlock) (View.ld x3 rWU) (View.ld x4 rBias) (View.ld x2 rBlock)⟩]

/-- The `new_c` block the body stores. -/
def cBlock (x0 x1 x2 : Vec F S256x1024 .f32) (x3 : Vec F S4096x2048 .bf16) (x4 : Vec F S1x4096 .f32) : Vec F S256x1024 .f32 :=
  View.canon [⟨rBlock, k0_pay2 (View.ld x0 rBlock) (View.ld x1 rBlock) (View.ld x3 rWU) (View.ld x4 rBias) (View.ld x2 rBlock)⟩]

/-- One whole-block store covers the buffer. -/
theorem whole_cover (p0 : Vec F S256x1024 .f32) (y : S256x1024.Idx) :
    ∃ pc ∈ ([⟨rBlock, p0⟩] : List (View.Piece (Elt F) S256x1024 .f32)), y ∈ pc.1.set :=
  View.cover_of_tiled [⟨rBlock, p0⟩] S256x1024.size (by rfl) y

/-! ## The body's triple -/

set_option maxHeartbeats 1000000 in
/-- The body on whole staging memrefs — the five inputs' at contents `x0 … x4`, the two outputs' at anything — runs to a
    continuation that holds the inputs' as they were and the outputs' at `hBlock` and `cBlock` of the inputs'. -/
theorem body_triple (c : Dev nD) (E : Set ℕ) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S4096x2048 .bf16) (harg4 : arg4.IsWhole)
    (arg5 : Memref sig .tc .vmem S1x4096 .f32) (harg5 : arg5.IsWhole) (arg6 : Memref sig .tc .vmem S256x1024 .f32) (harg6 : arg6.IsWhole)
    (arg7 : Memref sig .tc .vmem S256x1024 .f32) (harg7 : arg7.IsWhole)
    (x0 x1 x2 : Vec F S256x1024 .f32) (x3 : Vec F S4096x2048 .bf16) (x4 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (hBlock x0 x1 x2 x3 x4) ∗ owns (c : Thread nD τ) arg7 fullShare (cBlock x0 x1 x2 x3 x4)) -∗ K ⟨⟩))
      ⊢ wp frame (wpE (defs₀ (F := F)) Variants.none c none) E (cc0__lstm_kernel i arg1 harg1 arg2 harg2 arg3 harg3 arg4 harg4 arg5 harg5 arg6 harg6 arg7 harg7) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (whole_cover _)
  iexists _; isplitr
  swap; · iexact H6
  ipureintro
  exact View.read_writes_eq_canon _ _ _ (whole_cover _)

/-! ## The pipeline's proof data -/

/-- On core `c`: the arrays as the region finds them; after the body at point `t` each input's buffer at its block and
    each output's at the body's payload of the five input blocks; the invariant is what the body neither reads nor
    needs (the scoped rest, the generator register); nothing owed; full shares. -/
def dats (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => hBlock (blockAt m c 0 t) (blockAt m c 1 t) (blockAt m c 2 t) (blockAt m c 3 t) (blockAt m c 4 t)
    | ⟨6, _⟩ => cBlock (blockAt m c 0 t) (blockAt m c 1 t) (blockAt m c 2 t) (blockAt m c 3 t) (blockAt m c 4 t)
  Φ _ := Pipeline.ΦA spec0 c
  q _ := fullShare
  owed _ := 0

theorem dats_A (c : Dev nD) (w : Fin cfg0.W) : (dats m 0 c).A w = entry m c (Pipeline.arrRef spec0 w) := by
  dsimp only [dats]

theorem after_0 (c : Dev nD) (t : Fin cfg0.N) : (dats m 0 c).after 0 t = blockAt m c 0 t := by dsimp only [dats]
theorem after_1 (c : Dev nD) (t : Fin cfg0.N) : (dats m 0 c).after 1 t = blockAt m c 1 t := by dsimp only [dats]
theorem after_2 (c : Dev nD) (t : Fin cfg0.N) : (dats m 0 c).after 2 t = blockAt m c 2 t := by dsimp only [dats]
theorem after_3 (c : Dev nD) (t : Fin cfg0.N) : (dats m 0 c).after 3 t = blockAt m c 3 t := by dsimp only [dats]
theorem after_4 (c : Dev nD) (t : Fin cfg0.N) : (dats m 0 c).after 4 t = blockAt m c 4 t := by dsimp only [dats]
theorem after_5 (c : Dev nD) (t : Fin cfg0.N) : (dats m 0 c).after 5 t
    = hBlock (blockAt m c 0 t) (blockAt m c 1 t) (blockAt m c 2 t) (blockAt m c 3 t) (blockAt m c 4 t) := by dsimp only [dats]
theorem after_6 (c : Dev nD) (t : Fin cfg0.N) : (dats m 0 c).after 6 t
    = cBlock (blockAt m c 0 t) (blockAt m c 1 t) (blockAt m c 2 t) (blockAt m c 3 t) (blockAt m c 4 t) := by dsimp only [dats]

theorem staged_0 (c : Dev nD) (t : Fin cfg0.N) (d) : (dats m 0 c).before 0 t d = blockAt m c 0 t :=
  staged0_of m (dats m 0 c) (dats_A m c 0) (after_0 m c) t d
theorem staged_1 (c : Dev nD) (t : Fin cfg0.N) (d) : (dats m 0 c).before 1 t d = blockAt m c 1 t :=
  staged1_of m (dats m 0 c) (dats_A m c 1) (after_1 m c) t d
theorem staged_2 (c : Dev nD) (t : Fin cfg0.N) (d) : (dats m 0 c).before 2 t d = blockAt m c 2 t :=
  staged2_of m (dats m 0 c) (dats_A m c 2) (after_2 m c) t d
theorem staged_3 (c : Dev nD) (t : Fin cfg0.N) (d) : (dats m 0 c).before 3 t d = blockAt m c 3 t :=
  staged3_of m (dats m 0 c) (dats_A m c 3) (after_3 m c) t d
theorem staged_4 (c : Dev nD) (t : Fin cfg0.N) (d) : (dats m 0 c).before 4 t d = blockAt m c 4 t :=
  staged4_of m (dats m 0 c) (dats_A m c 4) (after_4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' memrefs hold their blocks, so the triple applies; the invariant and the core's
    `owes` pass through unread. -/
theorem body_at_point (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [staged_0, staged_1, staged_2, staged_3, staged_4]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_triple c Set.univ (grid0.coords t) _ _ _ _ _ _ _ _ _ _ _ _ _ _
    (blockAt m c 0 t) (blockAt m c 1 t) (blockAt m c 2 t) (blockAt m c 3 t) (blockAt m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact body_at_point m c t

/-! ## The run and the frame -/

set_option backward.isDefEq.respectTransparency.types false in
/-- From any memory with zero counters every weakly fair execution of @main terminates, and every final state has
    every array of the pipeline at what the library computes from the proof data and every other unscoped buffer as
    the region found it. -/
theorem run_main : θ_run defs (onTc (τ := τ) (main (F := F))) (s₀ m ρ) (Pipeline.FramePost cfgs (dats m) 0 (entry m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := entry m) (hmain := main_to_region m Variants.none) (hA := dats_A m) (hΦ := fun _ _ => rfl)

/-- The frame: the fifteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of_run m ρ (dats m) (dats_A m) (run_main m ρ)

end Cert.Kernel.Frm

end
-- ==== Proof.KernelIdealFrame.lean ====
/-
  The frame of `KernelIdeal`: every weakly fair execution of @main terminates, nothing faults, and the fifteen argument
  arrays end as they were launched — together with what the run leaves in the two result arrays, block by block.

  @main is six host operations (three row-wise concatenations of the gate weights and biases, one column-wise
  concatenation [W | U], a change of format, a reshape of the bias to one row) followed by ONE region over a grid of
  16 points. At point `t` the pipeline stages rows `256·t … 256·t+255` of `incoming`, `old_h`, `old_c` (windows 0–2),
  the whole `[W | U]` and the whole bias row (windows 3–4, fetched once, at the first point), runs the body, and writes
  back rows `256·t … 256·t+255` of `new_h` and `new_c` (windows 5–6).
  The body loads the five input blocks whole, computes, and stores each output block whole, once; so after the body an
  output's staging buffer holds ONE payload of the five input blocks (`hBlock`, `cBlock`), whatever it held before,
  and every input's buffer is as found. That is all the pipeline's proof data has to say; the library's frame run
  (`Pipeline.θ_run_frame`) does the rest.
-/
import proofs.«129482_j47347719471523_2_alg».proof.Proof.Gen.KernelIdeal.Launch
import proofs.«129482_j47347719471523_2_alg».proof.Proof.Gen.KernelIdeal.Skeleton
import proofs.«129482_j47347719471523_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the six host operations. -/
abbrev entry (c : Dev nD) (b : Ref sig .tc) : Buf (Elt F) ((c : Thread nD τ).loc b) :=
  StableHlo.after (List.flatten [hostOps0]) (fun b => m (c, b)) b

/-- None of the six host operations allocates. -/
theorem hostOps0_fresh : (hostOps0 : List (HloOp τ sig (Elt F))).Forall fun op => op.fresh = ∅ := by
  simp only [List.Forall]; repeat' constructor

/-- @main is its host operations, then the region. -/
theorem main_to_region (𝒱₀ : Variants) :
    Pipeline.HMain (Ix := Unit) (Name := ℕ) (U := UR sig nD τ) (Lvl := ℕ) cfgs 0 defs₀ 𝒱₀ m (main (F := F)) (entry m) :=
  Pipeline.hmain_prefixes cfgs 0 defs₀ 𝒱₀ m main [hostOps0] (by simp only [List.Forall]; exact hostOps0_sub)
    (by simp only [List.Forall]; exact hostOps0_fresh) main_chain

/-- No host operation before the region writes argument 0: the region finds it as launched. -/
theorem entry_arg0 (c : Dev nD) : entry m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.unary_writes, StableHlo.binary_writes, StableHlo.reshape_writes, StableHlo.nary_writes, Finset.mem_singleton]
    repeat' apply And.intro
    all_goals exact StableHlo.devRef_ne_of_ne (by decide)))
/-- No host operation before the region writes argument 1: the region finds it as launched. -/
theorem entry_arg1 (c : Dev nD) : entry m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.unary_writes, StableHlo.binary_writes, StableHlo.reshape_writes, StableHlo.nary_writes, Finset.mem_singleton]
    repeat' apply And.intro
    all_goals exact StableHlo.devRef_ne_of_ne (by decide)))
/-- No host operation before the region writes argument 2: the region finds it as launched. -/
theorem entry_arg2 (c : Dev nD) : entry m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.unary_writes, StableHlo.binary_writes, StableHlo.reshape_writes, StableHlo.nary_writes, Finset.mem_singleton]
    repeat' apply And.intro
    all_goals exact StableHlo.devRef_ne_of_ne (by decide)))
/-- No host operation before the region writes argument 3: the region finds it as launched. -/
theorem entry_arg3 (c : Dev nD) : entry m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall, StableHlo.unary_writes, StableHlo.binary_writes, StableHlo.reshape_writes, StableHlo.nary_writes, Finset.mem_singleton]
    repeat' apply And.intro
    all_goals exact StableHlo.devRef_ne_of_ne (by decide)))
/-- No host operation before the region writes argument 4: the region finds it as launched. -/
theorem entry_arg4 (c : Dev nD) : entry m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall, StableHlo.unary_writes, StableHlo.binary_writes, StableHlo.reshape_writes, StableHlo.nary_writes, Finset.mem_singleton]
    repeat' apply And.intro
    all_goals exact StableHlo.devRef_ne_of_ne (by decide)))
/-- No host operation before the region writes argument 5: the region finds it as launched. -/
theorem entry_arg5 (c : Dev nD) : entry m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append, List.nil_append, List.Forall, StableHlo.unary_writes, StableHlo.binary_writes, StableHlo.reshape_writes, StableHlo.nary_writes, Finset.mem_singleton]
    repeat' apply And.intro
    all_goals exact StableHlo.devRef_ne_of_ne (by decide)))
/-- No host operation before the region writes argument 6: the region finds it as launched. -/
theorem entry_arg6 (c : Dev nD) : entry m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append, List.nil_append, List.Forall, StableHlo.unary_writes, StableHlo.binary_writes, StableHlo.reshape_writes, StableHlo.nary_writes, Finset.mem_singleton]
    repeat' apply And.intro
    all_goals exact StableHlo.devRef_ne_of_ne (by decide)))
/-- No host operation before the region writes argument 7: the region finds it as launched. -/
theorem entry_arg7 (c : Dev nD) : entry m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append, List.nil_append, List.Forall, StableHlo.unary_writes, StableHlo.binary_writes, StableHlo.reshape_writes, StableHlo.nary_writes, Finset.mem_singleton]
    repeat' apply And.intro
    all_goals exact StableHlo.devRef_ne_of_ne (by decide)))
/-- No host operation before the region writes argument 8: the region finds it as launched. -/
theorem entry_arg8 (c : Dev nD) : entry m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append, List.nil_append, List.Forall, StableHlo.unary_writes, StableHlo.binary_writes, StableHlo.reshape_writes, StableHlo.nary_writes, Finset.mem_singleton]
    repeat' apply And.intro
    all_goals exact StableHlo.devRef_ne_of_ne (by decide)))
/-- No host operation before the region writes argument 9: the region finds it as launched. -/
theorem entry_arg9 (c : Dev nD) : entry m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append, List.nil_append, List.Forall, StableHlo.unary_writes, StableHlo.binary_writes, StableHlo.reshape_writes, StableHlo.nary_writes, Finset.mem_singleton]
    repeat' apply And.intro
    all_goals exact StableHlo.devRef_ne_of_ne (by decide)))
/-- No host operation before the region writes argument 10: the region finds it as launched. -/
theorem entry_arg10 (c : Dev nD) : entry m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append, List.nil_append, List.Forall, StableHlo.unary_writes, StableHlo.binary_writes, StableHlo.reshape_writes, StableHlo.nary_writes, Finset.mem_singleton]
    repeat' apply And.intro
    all_goals exact StableHlo.devRef_ne_of_ne (by decide)))
/-- No host operation before the region writes argument 11: the region finds it as launched. -/
theorem entry_arg11 (c : Dev nD) : entry m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append, List.nil_append, List.Forall, StableHlo.unary_writes, StableHlo.binary_writes, StableHlo.reshape_writes, StableHlo.nary_writes, Finset.mem_singleton]
    repeat' apply And.intro
    all_goals exact StableHlo.devRef_ne_of_ne (by decide)))
/-- No host operation before the region writes argument 12: the region finds it as launched. -/
theorem entry_arg12 (c : Dev nD) : entry m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append, List.nil_append, List.Forall, StableHlo.unary_writes, StableHlo.binary_writes, StableHlo.reshape_writes, StableHlo.nary_writes, Finset.mem_singleton]
    repeat' apply And.intro
    all_goals exact StableHlo.devRef_ne_of_ne (by decide)))
/-- No host operation before the region writes argument 13: the region finds it as launched. -/
theorem entry_arg13 (c : Dev nD) : entry m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append, List.nil_append, List.Forall, StableHlo.unary_writes, StableHlo.binary_writes, StableHlo.reshape_writes, StableHlo.nary_writes, Finset.mem_singleton]
    repeat' apply And.intro
    all_goals exact StableHlo.devRef_ne_of_ne (by decide)))
/-- No host operation before the region writes argument 14: the region finds it as launched. -/
theorem entry_arg14 (c : Dev nD) : entry m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append, List.nil_append, List.Forall, StableHlo.unary_writes, StableHlo.binary_writes, StableHlo.reshape_writes, StableHlo.nary_writes, Finset.mem_singleton]
    repeat' apply And.intro
    all_goals exact StableHlo.devRef_ne_of_ne (by decide)))

/-! ## The windows' blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-! An input window's current staging buffer holds its block at every point, fetched there or not (the two resident
    windows are fetched at the first point only, and their block index never moves), for any proof data over the
    region-entry arrays whose body leaves the block in place. -/
theorem staged0_of {c : Dev nD} (dat : Dat τ (Elt F) Unit ℕ (UR sig nD τ) ℕ cfg0 c) (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem staged1_of {c : Dev nD} (dat : Dat τ (Elt F) Unit ℕ (UR sig nD τ) ℕ cfg0 c) (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem staged2_of {c : Dev nD} (dat : Dat τ (Elt F) Unit ℕ (UR sig nD τ) ℕ cfg0 c) (hA : dat.A 2 = entry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem staged3_of {c : Dev nD} (dat : Dat τ (Elt F) Unit ℕ (UR sig nD τ) ℕ cfg0 c) (hA : dat.A 3 = entry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem staged4_of {c : Dev nD} (dat : Dat τ (Elt F) Unit ℕ (UR sig nD τ) ℕ cfg0 c) (hA : dat.A 4 = entry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-! ## The frame claim's post from the frame run's -/

/-- The three row-blocked arguments are windows' arrays, read at the end through the library's account of an input
    window; the twelve weights and biases are staged by no window and end as the region found them. -/
theorem args_kept (dats : (p : Fin 1) → (c : Dev nD) → Dat τ (Elt F) Unit ℕ (UR sig nD τ) ℕ (cfgs p) c)
    (hA : ∀ c w, (dats 0 c).A w = entry m c (Pipeline.arrRef spec0 w))
    (r : PUnit × MemSt nD τ sig (Elt F)) (h : Pipeline.FramePost cfgs dats 0 (entry m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  ⟨((h c).1 0).trans (((dats 0 c).arrAt_in 0 rfl _).trans ((hA c 0).trans (entry_arg0 m c))),
      ((h c).1 1).trans (((dats 0 c).arrAt_in 1 rfl _).trans ((hA c 1).trans (entry_arg1 m c))),
      ((h c).1 2).trans (((dats 0 c).arrAt_in 2 rfl _).trans ((hA c 2).trans (entry_arg2 m c))),
      ((h c).2 main_arg3 (Pipeline.mem_restRefs_of main_arg3 (by decide) (by decide))).trans (entry_arg3 m c),
      ((h c).2 main_arg4 (Pipeline.mem_restRefs_of main_arg4 (by decide) (by decide))).trans (entry_arg4 m c),
      ((h c).2 main_arg5 (Pipeline.mem_restRefs_of main_arg5 (by decide) (by decide))).trans (entry_arg5 m c),
      ((h c).2 main_arg6 (Pipeline.mem_restRefs_of main_arg6 (by decide) (by decide))).trans (entry_arg6 m c),
      ((h c).2 main_arg7 (Pipeline.mem_restRefs_of main_arg7 (by decide) (by decide))).trans (entry_arg7 m c),
      ((h c).2 main_arg8 (Pipeline.mem_restRefs_of main_arg8 (by decide) (by decide))).trans (entry_arg8 m c),
      ((h c).2 main_arg9 (Pipeline.mem_restRefs_of main_arg9 (by decide) (by decide))).trans (entry_arg9 m c),
      ((h c).2 main_arg10 (Pipeline.mem_restRefs_of main_arg10 (by decide) (by decide))).trans (entry_arg10 m c),
      ((h c).2 main_arg11 (Pipeline.mem_restRefs_of main_arg11 (by decide) (by decide))).trans (entry_arg11 m c),
      ((h c).2 main_arg12 (Pipeline.mem_restRefs_of main_arg12 (by decide) (by decide))).trans (entry_arg12 m c),
      ((h c).2 main_arg13 (Pipeline.mem_restRefs_of main_arg13 (by decide) (by decide))).trans (entry_arg13 m c),
      ((h c).2 main_arg14 (Pipeline.mem_restRefs_of main_arg14 (by decide) (by decide))).trans (entry_arg14 m c)⟩

/-- So a frame run is the frame claim's run. -/
theorem frame_of_run (dats : (p : Fin 1) → (c : Dev nD) → Dat τ (Elt F) Unit ℕ (UR sig nD τ) ℕ (cfgs p) c)
    (hA : ∀ c w, (dats 0 c).A w = entry m c (Pipeline.arrRef spec0 w))
    (h : θ_run defs (onTc (τ := τ) (main (F := F))) (s₀ m ρ) (Pipeline.FramePost cfgs dats 0 (entry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => args_kept m dats hA r h c) h

/-! ## The body's accesses and what it leaves -/

/-- A whole 256×1024 block, the whole [W | U], the whole bias row. -/
abbrev rBlock : Rect S256x1024 := Rect.unit (s := S256x1024) ![0, 0] S256x1024.size inb_S256x1024_S256x1024_0_0
abbrev rWU : Rect S4096x2048 := Rect.unit (s := S4096x2048) ![0, 0] S4096x2048.size inb_S4096x2048_S4096x2048_0_0
abbrev rBias : Rect S1x4096 := Rect.unit (s := S1x4096) ![0, 0] S1x4096.size inb_S1x4096_S1x4096_0_0

/-- The `new_h` block the body stores, from the blocks of `incoming`, `old_h`, `old_c`, `[W | U]` and the bias. -/
def hBlock (x0 x1 x2 : Vec F S256x1024 .f32) (x3 : Vec F S4096x2048 .bf16) (x4 : Vec F S1x4096 .f32) : Vec F S256x1024 .f32 :=
  View.canon [⟨rBlock, k0_pay3 (View.ld x0 rBlock) (View.ld x1 rBlock) (View.ld x3 rWU) (View.ld x4 rBias) (View.ld x2 rBlock)⟩]

/-- The `new_c` block the body stores. -/
def cBlock (x0 x1 x2 : Vec F S256x1024 .f32) (x3 : Vec F S4096x2048 .bf16) (x4 : Vec F S1x4096 .f32) : Vec F S256x1024 .f32 :=
  View.canon [⟨rBlock, k0_pay2 (View.ld x0 rBlock) (View.ld x1 rBlock) (View.ld x3 rWU) (View.ld x4 rBias) (View.ld x2 rBlock)⟩]

/-- One whole-block store covers the buffer. -/
theorem whole_cover (p0 : Vec F S256x1024 .f32) (y : S256x1024.Idx) :
    ∃ pc ∈ ([⟨rBlock, p0⟩] : List (View.Piece (Elt F) S256x1024 .f32)), y ∈ pc.1.set :=
  View.cover_of_tiled [⟨rBlock, p0⟩] S256x1024.size (by rfl) y

/-! ## The body's triple -/

set_option maxHeartbeats 1000000 in
/-- The body on whole staging memrefs — the five inputs' at contents `x0 … x4`, the two outputs' at anything — runs to a
    continuation that holds the inputs' as they were and the outputs' at `hBlock` and `cBlock` of the inputs'. -/
theorem body_triple (c : Dev nD) (E : Set ℕ) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S4096x2048 .bf16) (harg4 : arg4.IsWhole)
    (arg5 : Memref sig .tc .vmem S1x4096 .f32) (harg5 : arg5.IsWhole) (arg6 : Memref sig .tc .vmem S256x1024 .f32) (harg6 : arg6.IsWhole)
    (arg7 : Memref sig .tc .vmem S256x1024 .f32) (harg7 : arg7.IsWhole)
    (x0 x1 x2 : Vec F S256x1024 .f32) (x3 : Vec F S4096x2048 .bf16) (x4 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (hBlock x0 x1 x2 x3 x4) ∗ owns (c : Thread nD τ) arg7 fullShare (cBlock x0 x1 x2 x3 x4)) -∗ K ⟨⟩))
      ⊢ wp frame (wpE (defs₀ (F := F)) Variants.none c none) E (cc0__lstm_kernel i arg1 harg1 arg2 harg2 arg3 harg3 arg4 harg4 arg5 harg5 arg6 harg6 arg7 harg7) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (whole_cover _)
  iexists _; isplitr
  swap; · iexact H6
  ipureintro
  exact View.read_writes_eq_canon _ _ _ (whole_cover _)

/-! ## The pipeline's proof data -/

/-- On core `c`: the arrays as the region finds them; after the body at point `t` each input's buffer at its block and
    each output's at the body's payload of the five input blocks; the invariant is what the body neither reads nor
    needs (the scoped rest, the generator register); nothing owed; full shares. -/
def dats (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => hBlock (blockAt m c 0 t) (blockAt m c 1 t) (blockAt m c 2 t) (blockAt m c 3 t) (blockAt m c 4 t)
    | ⟨6, _⟩ => cBlock (blockAt m c 0 t) (blockAt m c 1 t) (blockAt m c 2 t) (blockAt m c 3 t) (blockAt m c 4 t)
  Φ _ := Pipeline.ΦA spec0 c
  q _ := fullShare
  owed _ := 0

theorem dats_A (c : Dev nD) (w : Fin cfg0.W) : (dats m 0 c).A w = entry m c (Pipeline.arrRef spec0 w) := by
  dsimp only [dats]

theorem after_0 (c : Dev nD) (t : Fin cfg0.N) : (dats m 0 c).after 0 t = blockAt m c 0 t := by dsimp only [dats]
theorem after_1 (c : Dev nD) (t : Fin cfg0.N) : (dats m 0 c).after 1 t = blockAt m c 1 t := by dsimp only [dats]
theorem after_2 (c : Dev nD) (t : Fin cfg0.N) : (dats m 0 c).after 2 t = blockAt m c 2 t := by dsimp only [dats]
theorem after_3 (c : Dev nD) (t : Fin cfg0.N) : (dats m 0 c).after 3 t = blockAt m c 3 t := by dsimp only [dats]
theorem after_4 (c : Dev nD) (t : Fin cfg0.N) : (dats m 0 c).after 4 t = blockAt m c 4 t := by dsimp only [dats]
theorem after_5 (c : Dev nD) (t : Fin cfg0.N) : (dats m 0 c).after 5 t
    = hBlock (blockAt m c 0 t) (blockAt m c 1 t) (blockAt m c 2 t) (blockAt m c 3 t) (blockAt m c 4 t) := by dsimp only [dats]
theorem after_6 (c : Dev nD) (t : Fin cfg0.N) : (dats m 0 c).after 6 t
    = cBlock (blockAt m c 0 t) (blockAt m c 1 t) (blockAt m c 2 t) (blockAt m c 3 t) (blockAt m c 4 t) := by dsimp only [dats]

theorem staged_0 (c : Dev nD) (t : Fin cfg0.N) (d) : (dats m 0 c).before 0 t d = blockAt m c 0 t :=
  staged0_of m (dats m 0 c) (dats_A m c 0) (after_0 m c) t d
theorem staged_1 (c : Dev nD) (t : Fin cfg0.N) (d) : (dats m 0 c).before 1 t d = blockAt m c 1 t :=
  staged1_of m (dats m 0 c) (dats_A m c 1) (after_1 m c) t d
theorem staged_2 (c : Dev nD) (t : Fin cfg0.N) (d) : (dats m 0 c).before 2 t d = blockAt m c 2 t :=
  staged2_of m (dats m 0 c) (dats_A m c 2) (after_2 m c) t d
theorem staged_3 (c : Dev nD) (t : Fin cfg0.N) (d) : (dats m 0 c).before 3 t d = blockAt m c 3 t :=
  staged3_of m (dats m 0 c) (dats_A m c 3) (after_3 m c) t d
theorem staged_4 (c : Dev nD) (t : Fin cfg0.N) (d) : (dats m 0 c).before 4 t d = blockAt m c 4 t :=
  staged4_of m (dats m 0 c) (dats_A m c 4) (after_4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' memrefs hold their blocks, so the triple applies; the invariant and the core's
    `owes` pass through unread. -/
theorem body_at_point (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [staged_0, staged_1, staged_2, staged_3, staged_4]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_triple c Set.univ (grid0.coords t) _ _ _ _ _ _ _ _ _ _ _ _ _ _
    (blockAt m c 0 t) (blockAt m c 1 t) (blockAt m c 2 t) (blockAt m c 3 t) (blockAt m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact body_at_point m c t

/-! ## The run and the frame -/

set_option backward.isDefEq.respectTransparency.types false in
/-- From any memory with zero counters every weakly fair execution of @main terminates, and every final state has
    every array of the pipeline at what the library computes from the proof data and every other unscoped buffer as
    the region found it. -/
theorem run_main : θ_run defs (onTc (τ := τ) (main (F := F))) (s₀ m ρ) (Pipeline.FramePost cfgs (dats m) 0 (entry m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := entry m) (hmain := main_to_region m Variants.none) (hA := dats_A m) (hΦ := fun _ _ => rfl)

/-- The frame: the fifteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of_run m ρ (dats m) (dats_A m) (run_main m ρ)

end Cert.KernelIdeal.Frm

end
-- ==== Proof.LstmSpec.lean ====
/-
  The LSTM cell as ONE function of its arguments, index by index, on the extended reals.

  Arguments: `x` (incoming), `h` (old hidden state), `c₀` (old cell state), each 4096 × 1024; `W`, `U` the four
  gates' input and hidden weights stacked row-wise (4096 × 1024 each: rows 0–1023 the input gate, 1024–2047 the output
  gate, 2048–3071 the forget gate, 3072–4095 the candidate); `b` the four biases stacked (4096).

  For batch row `r` and gate column `n` the pre-activation is
      gate r n = Σₖ x[r,k]·W[n,k] + Σₖ h[r,k]·U[n,k] + b[n]          (k < 1024),
  and for hidden unit `j`
      c'[r,j] = σ(gate r (2048+j)) · c₀[r,j] + σ(gate r j) · tanh(gate r (3072+j)),
      h'[r,j] = σ(gate r (1024+j)) · tanh(c'[r,j]).

  The one law used between the two programs: a sum over 2048 terms is the sum of its first 1024 and its last 1024
  terms. It is a law of a commutative monoid, so it holds on the extended reals with no finiteness assumption.
-/
import Idealize.ShloMosaic.PureOps.Ideal
import Idealize.ShloMosaic.PureOps.Ideal.Laws
import Idealize.ShloMosaic.Lib.ValueIdx

noncomputable section

namespace Cert.LstmSpec

open Idealize.ShloMosaic Idealize.ShloMosaic.ValueIdx

/-- Batch × hidden (also: stacked gates × features). -/
abbrev Rows : Shape := ⟨2, ![4096, 1024]⟩
/-- The stacked biases. -/
abbrev Gates : Shape := ⟨1, ![4096]⟩

/-- The columns of the four gates for hidden unit `j`: input, output, forget, candidate. -/
def colI (j : Fin 1024) : Fin 4096 := ⟨j.val, by omega⟩
def colO (j : Fin 1024) : Fin 4096 := ⟨1024 + j.val, by omega⟩
def colF (j : Fin 1024) : Fin 4096 := ⟨2048 + j.val, by omega⟩
def colC (j : Fin 1024) : Fin 4096 := ⟨3072 + j.val, by omega⟩

/-- The pre-activation of gate column `n` at batch row `r`. -/
def gate (x h W U : Rows.Idx → EReal) (b : Gates.Idx → EReal) (r : Fin 4096) (n : Fin 4096) : EReal :=
  (∑ k : Fin 1024, x (ix2 r k) * W (ix2 n k)) + (∑ k : Fin 1024, h (ix2 r k) * U (ix2 n k)) + b (ix1 n)

/-- The new cell state of one unit, from its row's pre-activations `g` and its old cell state `c₀`. -/
def cellC (g : Fin 4096 → EReal) (c₀ : EReal) (j : Fin 1024) : EReal :=
  Ideal.logistic (g (colF j)) * c₀ + Ideal.logistic (g (colI j)) * Ideal.tanh (g (colC j))

/-- The new hidden state of one unit. -/
def cellH (g : Fin 4096 → EReal) (c₀ : EReal) (j : Fin 1024) : EReal :=
  Ideal.logistic (g (colO j)) * Ideal.tanh (cellC g c₀ j)

/-- The new cell state, whole. -/
def newC (x h c₀ W U : Rows.Idx → EReal) (b : Gates.Idx → EReal) : Rows.Idx → EReal :=
  fun i => cellC (gate x h W U b (i 0)) (c₀ i) (i 1)

/-- The new hidden state, whole. -/
def newH (x h c₀ W U : Rows.Idx → EReal) (b : Gates.Idx → EReal) : Rows.Idx → EReal :=
  fun i => cellH (gate x h W U b (i 0)) (c₀ i) (i 1)

/-- A sum of 2048 terms is the sum of its first 1024 and of its last 1024. -/
theorem sum_halves (f : Fin 2048 → EReal) :
    ∑ k : Fin 2048, f k = (∑ k : Fin 1024, f ⟨k.val, by omega⟩) + ∑ k : Fin 1024, f ⟨1024 + k.val, by omega⟩ :=
  Fin.sum_univ_add (M := EReal) (a := 1024) (b := 1024) f

/-- The pattern of `1.0` in f32 denotes the real one. -/
theorem ofBits_one : Ideal.ofBits .f32 0x3F800000#32 = 1 := by
  simp [Ideal.ofBits, Ideal.ieee, -EReal.coe_mul]; norm_num

end Cert.LstmSpec

end
-- ==== Proof.LstmPayload.lean ====
/-
  What the body computes, read at an index (at the ideal instance, over arbitrary loaded blocks).

  The body forms `[x | h]` (256 × 2048) from the blocks of `incoming` and `old_h`, contracts it with the resident
  `[W | U]` (4096 × 2048) over the 2048 columns, and adds the bias row. Read at row `p` and gate column `n`, the fused
  contraction is the sum of its first 1024 terms — `x` against the left half of `[W | U]` — and its last 1024 — `h` against
  the right half. The two stores are then the cell's pointwise arithmetic on four 1024-column slices of that.
-/
import proofs.«129482_j47347719471523_2_alg».proof.Proof.Gen.KernelIdeal.Skeleton
import proofs.«129482_j47347719471523_2_alg».proof.Proof.LstmSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Idealize.ShloMosaic Idealize.ShloMosaic.ValueIdx
open Cert.KernelIdeal Cert.KernelIdeal.Gen Cert.LstmSpec

local notation "dotK" => dot_S256x2048_S4096x2048_S256x4096_1_1_0_0_n_n

/-! ## The contraction's operand indices -/

theorem lhs_row (i : S256x4096.Idx) (q : (dotK).contr.Idx) : ((dotK).lhsIdx i q 0).val = (i 0).val := by
  unfold DotDims.lhsIdx
  rw [dif_neg (show ¬(0 : Fin S256x2048.rank) ∈ (dotK).lhsBatch by decide),
    dif_pos (show (0 : Fin S256x2048.rank) ∈ (dotK).lhsNonContracting by decide)]
  rfl
theorem lhs_col (i : S256x4096.Idx) (q : (dotK).contr.Idx) : ((dotK).lhsIdx i q 1).val = (q ⟨0, by decide⟩).val :=
  (dotK).lhsIdx_val_of_single rfl i q
theorem rhs_row (i : S256x4096.Idx) (q : (dotK).contr.Idx) : ((dotK).rhsIdx i q 0).val = (i 1).val := by
  unfold DotDims.rhsIdx
  rw [dif_neg (show ¬(0 : Fin S4096x2048.rank) ∈ (dotK).rhsBatch by decide),
    dif_pos (show (0 : Fin S4096x2048.rank) ∈ (dotK).rhsNonContracting by decide)]
  rfl
theorem rhs_col (i : S256x4096.Idx) (q : (dotK).contr.Idx) : ((dotK).rhsIdx i q 1).val = (q ⟨0, by decide⟩).val :=
  (dotK).rhsIdx_val_of_single rfl i q

/-- The fused product into a zero accumulator, at row `p` and gate column `n`: the sum over the 2048 columns. -/
theorem fused_apply (xh : FVec Ideal S256x2048 .bf16) (wu : FVec Ideal S4096x2048 .bf16) (p : Fin 256) (n : Fin 4096) :
    matmul dotK none xh wu (constant S256x4096 .f32 0x00000000#32) (ix2 p n)
      = ∑ k : Fin 2048, xh (ix2 p k) * wu (ix2 n k) := by
  simp only [matmul]
  rw [Ideal.matmul_constant_zero_apply, ← Equiv.sum_comp (contrEquiv1 dotK 2048 rfl rfl).symm]
  refine Finset.sum_congr rfl fun k _ => ?_
  have hk := contrEquiv1_symm_val dotK 2048 rfl rfl k
  have el : (dotK).lhsIdx (ix2 p n) ((contrEquiv1 dotK 2048 rfl rfl).symm k) = ix2 p k := funext fun a => Fin.ext (by
    match a with
    | ⟨0, _⟩ => exact lhs_row _ _
    | ⟨1, _⟩ => exact (lhs_col _ _).trans hk)
  have er : (dotK).rhsIdx (ix2 p n) ((contrEquiv1 dotK 2048 rfl rfl).symm k) = ix2 n k := funext fun a => Fin.ext (by
    match a with
    | ⟨0, _⟩ => exact rhs_row _ _
    | ⟨1, _⟩ => exact (rhs_col _ _).trans hk)
  rw [el, er]

/-! ## `[a | b]` at an index -/

/-- A column of the left half of `[a | b]` is `a`'s. -/
theorem pair_left {R : Nat} (a b : (⟨2, ![R, 1024]⟩ : Shape).Idx → EReal)
    (hc : Shape.Concatenates [(⟨2, ![R, 1024]⟩ : Shape), (⟨2, ![R, 1024]⟩ : Shape)] (⟨2, ![R, 2048]⟩ : Shape) 1)
    (p : Fin R) (k : Fin 1024) :
    concatenate (⟨2, ![R, 2048]⟩ : Shape) 1 [⟨(⟨2, ![R, 1024]⟩ : Shape), a⟩, ⟨(⟨2, ![R, 1024]⟩ : Shape), b⟩] hc
      (ix2 p (⟨k.val, by omega⟩ : Fin 2048)) = a (ix2 p k) :=
  concatenate_pair_apply_left (t := (⟨2, ![R, 2048]⟩ : Shape)) (s₁ := (⟨2, ![R, 1024]⟩ : Shape)) (s₂ := (⟨2, ![R, 1024]⟩ : Shape))
    (1 : Fin 2) a b hc (ix2 p (⟨k.val, by omega⟩ : Fin 2048)) rfl (ix2 p k) (fun b => match b with
    | ⟨0, _⟩ => rfl
    | ⟨1, _⟩ => rfl)

/-- A column of the right half of `[a | b]` is `b`'s, 1024 columns back. -/
theorem pair_right {R : Nat} (a b : (⟨2, ![R, 1024]⟩ : Shape).Idx → EReal)
    (hc : Shape.Concatenates [(⟨2, ![R, 1024]⟩ : Shape), (⟨2, ![R, 1024]⟩ : Shape)] (⟨2, ![R, 2048]⟩ : Shape) 1)
    (p : Fin R) (k : Fin 1024) :
    concatenate (⟨2, ![R, 2048]⟩ : Shape) 1 [⟨(⟨2, ![R, 1024]⟩ : Shape), a⟩, ⟨(⟨2, ![R, 1024]⟩ : Shape), b⟩] hc
      (ix2 p (⟨1024 + k.val, by omega⟩ : Fin 2048)) = b (ix2 p k) :=
  concatenate_pair_apply_right (t := (⟨2, ![R, 2048]⟩ : Shape)) (s₁ := (⟨2, ![R, 1024]⟩ : Shape)) (s₂ := (⟨2, ![R, 1024]⟩ : Shape))
    (1 : Fin 2) a b hc (ix2 p (⟨1024 + k.val, by omega⟩ : Fin 2048)) rfl rfl (ix2 p k) (fun b hb => match b, hb with
    | ⟨0, _⟩, _ => rfl
    | ⟨1, _⟩, hb => absurd rfl hb) (by show k.val + 1024 = 1024 + k.val; omega)

/-! ## The pre-activations -/

/-- The fused product plus the bias row broadcast down the rows, at row `p`, gate column `n`. -/
theorem preact_of (xh : FVec Ideal S256x2048 .bf16) (wu : FVec Ideal S4096x2048 .bf16) (bb : FVec Ideal S1x4096 .f32)
    (p : Fin 256) (n : Fin 4096) :
    addf (matmul dotK none xh wu (constant S256x4096 .f32 0x00000000#32)) (broadcastTo S256x4096 bb broadcasts_S1x4096_S256x4096) (ix2 p n)
      = (∑ k : Fin 2048, xh (ix2 p k) * wu (ix2 n k)) + bb (ix2 (0 : Fin 1) n) := by
  rw [addf_apply, fused_apply, broadcastTo_1b_ab_apply]

/-- The pre-activation block at row `p`, gate column `n`: `x` against the left half of `[W | U]`, `h` against its right
    half, and the bias. -/
theorem preact_apply (x0 x1 : Vec Ideal S256x1024 .f32) (wu : Vec Ideal S4096x2048 .bf16) (bb : Vec Ideal S1x4096 .f32)
    (p : Fin 256) (n : Fin 4096) :
    k0_pay1 (F := Ideal) x0 x1 wu bb (ix2 p n)
      = (∑ k : Fin 1024, x0 (ix2 p k) * wu (ix2 n (⟨k.val, by omega⟩ : Fin 2048)))
        + (∑ k : Fin 1024, x1 (ix2 p k) * wu (ix2 n (⟨1024 + k.val, by omega⟩ : Fin 2048)))
        + bb (ix2 (0 : Fin 1) n) := by
  unfold k0_pay1
  rw [shapeCast_self, shapeCast_self, preact_of, sum_halves]
  congr 2
  · refine Finset.sum_congr rfl fun k _ => ?_
    rw [pair_left]; rfl
  · refine Finset.sum_congr rfl fun k _ => ?_
    rw [pair_right]; rfl

/-! ## The two stores -/

theorem logistic_at {s : Shape} (v : FVec Ideal s .f32) (i : s.Idx) : logistic v i = Ideal.logistic (v i) := rfl
theorem tanh_at {s : Shape} (v : FVec Ideal s .f32) (i : s.Idx) : tanh v i = Ideal.tanh (v i) := rfl

/-- A 1024-column slice of a 256 × 4096 block starting at column `o`. -/
theorem slice_apply (g : FVec Ideal S256x4096 .f32) (o : Nat) (hs : S256x4096.Slices ![0, o] S256x1024)
    (p : Fin 256) (j : Fin 1024) (n : Fin 4096) (hn : n.val = o + j.val) :
    extractStridedSlice S256x1024 ![0, o] g hs (ix2 p j) = g (ix2 p n) :=
  extractStridedSlice_apply ![0, o] g hs (ix2 p j) (ix2 p n) (fun a => match a with
    | ⟨0, _⟩ => (Nat.zero_add _).symm
    | ⟨1, _⟩ => hn)

/-- The cell-state arithmetic on a pre-activation block `g`, at row `p`, unit `j`. -/
theorem cstore_of (g : FVec Ideal S256x4096 .f32) (x2 : FVec Ideal S256x1024 .f32) (p : Fin 256) (j : Fin 1024) :
    addf (mulf (logistic (extractStridedSlice S256x1024 ![0, 2048] g slices_S256x4096_o0_2048_S256x1024)) x2)
        (mulf (logistic (extractStridedSlice S256x1024 ![0, 0] g slices_S256x4096_o0_0_S256x1024))
          (tanh (extractStridedSlice S256x1024 ![0, 3072] g slices_S256x4096_o0_3072_S256x1024))) (ix2 p j)
      = cellC (fun n => g (ix2 p n)) (x2 (ix2 p j)) j := by
  rw [addf_apply, mulf_apply, mulf_apply, logistic_at, logistic_at, tanh_at,
    slice_apply g 2048 _ p j (colF j) rfl, slice_apply g 0 _ p j (colI j) (Nat.zero_add _).symm,
    slice_apply g 3072 _ p j (colC j) rfl]
  rfl

/-- The hidden-state arithmetic on a pre-activation block `g` and a new cell state `cn`. -/
theorem hstore_of (g : FVec Ideal S256x4096 .f32) (cn : FVec Ideal S256x1024 .f32) (p : Fin 256) (j : Fin 1024) :
    mulf (logistic (extractStridedSlice S256x1024 ![0, 1024] g slices_S256x4096_o0_1024_S256x1024)) (tanh cn) (ix2 p j)
      = Ideal.logistic (g (ix2 p (colO j))) * Ideal.tanh (cn (ix2 p j)) := by
  rw [mulf_apply, logistic_at, tanh_at, slice_apply g 1024 _ p j (colO j) rfl]

/-- The stored `new_c` block at row `p`, unit `j`: the cell's arithmetic on the row's pre-activations. -/
theorem cstore_apply (x0 x1 : Vec Ideal S256x1024 .f32) (wu : Vec Ideal S4096x2048 .bf16) (bb : Vec Ideal S1x4096 .f32)
    (x2 : Vec Ideal S256x1024 .f32) (p : Fin 256) (j : Fin 1024) :
    k0_pay2 (F := Ideal) x0 x1 wu bb x2 (ix2 p j)
      = cellC (fun n => k0_pay1 (F := Ideal) x0 x1 wu bb (ix2 p n)) (x2 (ix2 p j)) j :=
  cstore_of (k0_pay1 (F := Ideal) x0 x1 wu bb) x2 p j

/-- The stored `new_h` block at row `p`, unit `j`. -/
theorem hstore_apply (x0 x1 : Vec Ideal S256x1024 .f32) (wu : Vec Ideal S4096x2048 .bf16) (bb : Vec Ideal S1x4096 .f32)
    (x2 : Vec Ideal S256x1024 .f32) (p : Fin 256) (j : Fin 1024) :
    k0_pay3 (F := Ideal) x0 x1 wu bb x2 (ix2 p j)
      = cellH (fun n => k0_pay1 (F := Ideal) x0 x1 wu bb (ix2 p n)) (x2 (ix2 p j)) j :=
  (hstore_of (k0_pay1 (F := Ideal) x0 x1 wu bb) (k0_pay2 (F := Ideal) x0 x1 wu bb x2) p j).trans (by
    rw [cstore_apply]; rfl)

/-! ## A block of the cell -/

/-- If the loaded blocks are rows `r₀ … r₀+255` of `X`, `H`, `C₀`, the resident matrix is `[W | U]` and the bias row is
    `B`, the two stored blocks are rows `r₀ … r₀+255` of the cell's new hidden and cell states. -/
theorem block_gate (x0 x1 : Vec Ideal S256x1024 .f32) (wu : Vec Ideal S4096x2048 .bf16) (bb : Vec Ideal S1x4096 .f32)
    (X H W U : Rows.Idx → EReal) (B : Gates.Idx → EReal) (r : Fin 4096) (p : Fin 256)
    (h0 : ∀ k : Fin 1024, x0 (ix2 p k) = X (ix2 r k)) (h1 : ∀ k : Fin 1024, x1 (ix2 p k) = H (ix2 r k))
    (hL : ∀ (n : Fin 4096) (k : Fin 1024), wu (ix2 n (⟨k.val, by omega⟩ : Fin 2048)) = W (ix2 n k))
    (hR : ∀ (n : Fin 4096) (k : Fin 1024), wu (ix2 n (⟨1024 + k.val, by omega⟩ : Fin 2048)) = U (ix2 n k))
    (hB : ∀ n : Fin 4096, bb (ix2 (0 : Fin 1) n) = B (ix1 n)) :
    (fun n => k0_pay1 (F := Ideal) x0 x1 wu bb (ix2 p n)) = gate X H W U B r := by
  funext n
  rw [preact_apply]
  unfold gate
  simp only [h0, h1, hL, hR, hB]

end Cert.KernelIdeal.Pay

end
-- ==== Proof.KernelIdealValue.lean ====
/-
  What the idealized kernel's run leaves in its two result arrays: the LSTM cell of its arguments.

  At grid point `t` the pipeline writes back rows `256·t … 256·t+255` of each result. The block it writes is the body's
  payload of the staged blocks: rows `256·t …` of `incoming`, `old_h`, `old_c`, and the two resident operands, which the
  host prefix made — `[W | U]` (the four gates' input weights stacked row-wise, beside the four hidden weights stacked
  row-wise) and the stacked bias as one row. Read at an index the payload is the cell at that row and unit, so each
  written block is a block of ONE whole-array function; the sixteen blocks tile the 4096 rows, so the arrays end
  holding that function.
-/
import proofs.«129482_j47347719471523_2_alg».proof.Proof.KernelIdealFrame
import proofs.«129482_j47347719471523_2_alg».proof.Proof.LstmPayload
import Idealize.ShloMosaic.Lib.Pipeline.Value
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.Val

open Cert.KernelIdeal Cert.KernelIdeal.Gen Cert.KernelIdeal.Frm Cert.KernelIdeal.Pay Cert.LstmSpec

variable (m : (ℓ : Loc nD τ sig) → Buf (Elt Ideal) ℓ) (ρ : Dev nD → PrngReg)

/-! ## The stacked weights and bias -/

/-- The four gates' input weights stacked row-wise, their hidden weights, their biases: what the host prefix's three
    gate-wise concatenations compute from the launch memory. -/
abbrev stackW (c : Dev nD) : (⟨S4096x1024, .f32⟩ : BufTy).Contents (Elt Ideal) :=
  concatenate S4096x1024 0 [⟨S1024x1024, (m ((c : Thread nD τ).loc main_arg3))⟩, ⟨S1024x1024, (m ((c : Thread nD τ).loc main_arg6))⟩, ⟨S1024x1024, (m ((c : Thread nD τ).loc main_arg9))⟩, ⟨S1024x1024, (m ((c : Thread nD τ).loc main_arg12))⟩] concatenates_S1024x1024_S1024x1024_S1024x1024_S1024x1024_S4096x1024_d0
abbrev stackU (c : Dev nD) : (⟨S4096x1024, .f32⟩ : BufTy).Contents (Elt Ideal) :=
  concatenate S4096x1024 0 [⟨S1024x1024, (m ((c : Thread nD τ).loc main_arg5))⟩, ⟨S1024x1024, (m ((c : Thread nD τ).loc main_arg8))⟩, ⟨S1024x1024, (m ((c : Thread nD τ).loc main_arg11))⟩, ⟨S1024x1024, (m ((c : Thread nD τ).loc main_arg14))⟩] concatenates_S1024x1024_S1024x1024_S1024x1024_S1024x1024_S4096x1024_d0
abbrev stackB (c : Dev nD) : (⟨S4096, .f32⟩ : BufTy).Contents (Elt Ideal) :=
  concatenate S4096 0 [⟨S1024, (m ((c : Thread nD τ).loc main_arg4))⟩, ⟨S1024, (m ((c : Thread nD τ).loc main_arg7))⟩, ⟨S1024, (m ((c : Thread nD τ).loc main_arg10))⟩, ⟨S1024, (m ((c : Thread nD τ).loc main_arg13))⟩] concatenates_S1024_S1024_S1024_S1024_S4096_d0

/-- The resident matrix as the region finds it: `[W | U]`, its format changed. -/
theorem entry_wu (c : Dev nD) :
    (entry m c main_v3 : (⟨S4096x2048, .bf16⟩ : BufTy).Contents (Elt Ideal))
      = truncf (F := Ideal) .bf16 (concatenate S4096x2048 1 [⟨S4096x1024, stackW m c⟩, ⟨S4096x1024, stackU m c⟩] concatenates_S4096x1024_S4096x1024_S4096x2048_d1) bitsLt_bf16_f32 := by
  dsimp only [entry]
  simp only [hostOps0, List.flatten_cons, List.flatten_nil, List.append_nil, List.cons_append, List.nil_append]
  after_results
  rfl

/-- The resident bias as the region finds it: the stacked bias as one row. -/
theorem entry_bias (c : Dev nD) :
    (entry m c main_v5 : (⟨S1x4096, .f32⟩ : BufTy).Contents (Elt Ideal))
      = shapeCast S1x4096 (stackB m c) shapeCasts_S4096_S1x4096 := by
  dsimp only [entry]
  simp only [hostOps0, List.flatten_cons, List.flatten_nil, List.append_nil, List.cons_append, List.nil_append]
  after_results
  rfl

/-! ## The blocks the body is handed -/

theorem hz : (![0, 0] : Fin 2 → Nat) = fun _ => 0 := funext fun a => by fin_cases a <;> rfl

/-- The printed index maps, decided over the grid: the three row-blocked inputs and the two outputs are at block
    (t, 0); the two resident operands at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Row `p` of point `t`'s block is row `256·t + p` of the array. -/
def rowOf (t : Fin cfg0.N) (p : Fin 256) : Fin 4096 :=
  ⟨t.val * 256 + p.val, by have := t.isLt; have hN : cfg0.N = 16 := N_0; omega⟩

/-- Window 0's block at point `t` is rows `256·t … 256·t+255` of argument 0. -/
theorem block0_apply (c : Dev nD) (t : Fin cfg0.N) (p : Fin 256) (k : Fin 1024) :
    (blockAt m c 0 t : Vec Ideal S256x1024 .f32) (ix2 p k)
      = ((m ((c : Thread nD τ).loc main_arg0)) : Rows.Idx → EReal) (ix2 (rowOf t p) k) := by
  have e := idx_facts t
  unfold blockAt
  rw [View.read_apply]
  show entry m c main_arg0 _ = _
  rw [entry_arg0]
  refine congrArg (m ((c : Thread nD τ).loc main_arg0)) (funext fun a => Fin.ext ?_)
  match a with
  | ⟨0, _⟩ => show win0_0.index t (0 : Fin 2) * 256 + 1 * p.val = t.val * 256 + p.val; omega
  | ⟨1, _⟩ => show win0_0.index t (1 : Fin 2) * 1024 + 1 * k.val = k.val; omega

/-- Window 1's block at point `t` is rows `256·t … 256·t+255` of argument 1. -/
theorem block1_apply (c : Dev nD) (t : Fin cfg0.N) (p : Fin 256) (k : Fin 1024) :
    (blockAt m c 1 t : Vec Ideal S256x1024 .f32) (ix2 p k)
      = ((m ((c : Thread nD τ).loc main_arg1)) : Rows.Idx → EReal) (ix2 (rowOf t p) k) := by
  have e := idx_facts t
  unfold blockAt
  rw [View.read_apply]
  show entry m c main_arg1 _ = _
  rw [entry_arg1]
  refine congrArg (m ((c : Thread nD τ).loc main_arg1)) (funext fun a => Fin.ext ?_)
  match a with
  | ⟨0, _⟩ => show win0_1.index t (0 : Fin 2) * 256 + 1 * p.val = t.val * 256 + p.val; omega
  | ⟨1, _⟩ => show win0_1.index t (1 : Fin 2) * 1024 + 1 * k.val = k.val; omega

/-- Window 2's block at point `t` is rows `256·t … 256·t+255` of argument 2. -/
theorem block2_apply (c : Dev nD) (t : Fin cfg0.N) (p : Fin 256) (k : Fin 1024) :
    (blockAt m c 2 t : Vec Ideal S256x1024 .f32) (ix2 p k)
      = ((m ((c : Thread nD τ).loc main_arg2)) : Rows.Idx → EReal) (ix2 (rowOf t p) k) := by
  have e := idx_facts t
  unfold blockAt
  rw [View.read_apply]
  show entry m c main_arg2 _ = _
  rw [entry_arg2]
  refine congrArg (m ((c : Thread nD τ).loc main_arg2)) (funext fun a => Fin.ext ?_)
  match a with
  | ⟨0, _⟩ => show win0_2.index t (0 : Fin 2) * 256 + 1 * p.val = t.val * 256 + p.val; omega
  | ⟨1, _⟩ => show win0_2.index t (1 : Fin 2) * 1024 + 1 * k.val = k.val; omega

/-- The resident matrix's one block is the whole `[W | U]`: its left half reads the stacked input weights, -/
theorem wu_left (c : Dev nD) (t : Fin cfg0.N) (n : Fin 4096) (k : Fin 1024) :
    (blockAt m c 3 t : Vec Ideal S4096x2048 .bf16) (ix2 n (⟨k.val, by omega⟩ : Fin 2048))
      = (stackW m c : Rows.Idx → EReal) (ix2 n k) := by
  have e := idx_facts t
  unfold blockAt
  rw [View.read_apply]
  show entry m c main_v3 _ = _
  rw [entry_wu, truncf_apply]
  refine Eq.trans (congrArg _ (funext fun a => Fin.ext ?_)) (pair_left (R := 4096) (stackW m c) (stackU m c) concatenates_S4096x1024_S4096x1024_S4096x2048_d1 n k)
  match a with
  | ⟨0, _⟩ => show win0_3.index t (0 : Fin 2) * 4096 + 1 * n.val = n.val; omega
  | ⟨1, _⟩ => show win0_3.index t (1 : Fin 2) * 2048 + 1 * k.val = k.val; omega

/-- its right half the stacked hidden weights. -/
theorem wu_right (c : Dev nD) (t : Fin cfg0.N) (n : Fin 4096) (k : Fin 1024) :
    (blockAt m c 3 t : Vec Ideal S4096x2048 .bf16) (ix2 n (⟨1024 + k.val, by omega⟩ : Fin 2048))
      = (stackU m c : Rows.Idx → EReal) (ix2 n k) := by
  have e := idx_facts t
  unfold blockAt
  rw [View.read_apply]
  show entry m c main_v3 _ = _
  rw [entry_wu, truncf_apply]
  refine Eq.trans (congrArg _ (funext fun a => Fin.ext ?_)) (pair_right (R := 4096) (stackW m c) (stackU m c) concatenates_S4096x1024_S4096x1024_S4096x2048_d1 n k)
  match a with
  | ⟨0, _⟩ => show win0_3.index t (0 : Fin 2) * 4096 + 1 * n.val = n.val; omega
  | ⟨1, _⟩ => show win0_3.index t (1 : Fin 2) * 2048 + 1 * (1024 + k.val) = 1024 + k.val; omega

/-- The resident bias row's one block is the stacked bias. -/
theorem bias_apply (c : Dev nD) (t : Fin cfg0.N) (n : Fin 4096) :
    (blockAt m c 4 t : Vec Ideal S1x4096 .f32) (ix2 (0 : Fin 1) n) = (stackB m c : Gates.Idx → EReal) (ix1 n) := by
  have e := idx_facts t
  unfold blockAt
  rw [View.read_apply]
  show entry m c main_v5 _ = _
  rw [entry_bias]
  refine Eq.trans (congrArg _ (funext fun a => Fin.ext ?_)) (shapeCast_a_1a_apply (stackB m c) shapeCasts_S4096_S1x4096 (0 : Fin 1) n)
  match a with
  | ⟨0, _⟩ => show win0_4.index t (0 : Fin 2) * 1 + 1 * 0 = 0; omega
  | ⟨1, _⟩ => show win0_4.index t (1 : Fin 2) * 4096 + 1 * n.val = n.val; omega

/-! ## The two results as whole arrays -/

/-- The cell's new hidden and cell states of the launch memory's arguments. -/
abbrev hOf (c : Dev nD) : Buf (Elt Ideal) ((c : Thread nD τ).loc main_v6_0) :=
  newH (m ((c : Thread nD τ).loc main_arg0)) (m ((c : Thread nD τ).loc main_arg1)) (m ((c : Thread nD τ).loc main_arg2)) (stackW m c) (stackU m c) (stackB m c)
abbrev cOf (c : Dev nD) : Buf (Elt Ideal) ((c : Thread nD τ).loc main_v6_1) :=
  newC (m ((c : Thread nD τ).loc main_arg0)) (m ((c : Thread nD τ).loc main_arg1)) (m ((c : Thread nD τ).loc main_arg2)) (stackW m c) (stackU m c) (stackB m c)

/-- The pre-activations the body computes at point `t`, row `p`, are the cell's at row `256·t + p`. -/
theorem gate_at (c : Dev nD) (t : Fin cfg0.N) (p : Fin 256) :
    (fun n => k0_pay1 (F := Ideal) (blockAt m c 0 t) (blockAt m c 1 t) (blockAt m c 3 t) (blockAt m c 4 t) (ix2 p n))
      = gate (m ((c : Thread nD τ).loc main_arg0)) (m ((c : Thread nD τ).loc main_arg1)) (stackW m c) (stackU m c) (stackB m c) (rowOf t p) :=
  block_gate (blockAt m c 0 t) (blockAt m c 1 t) (blockAt m c 3 t) (blockAt m c 4 t)
    (m ((c : Thread nD τ).loc main_arg0)) (m ((c : Thread nD τ).loc main_arg1)) (stackW m c) (stackU m c) (stackB m c) (rowOf t p) p
    (fun k => block0_apply m c t p k) (fun k => block1_apply m c t p k)
    (fun n k => wu_left m c t n k) (fun n k => wu_right m c t n k) (fun n => bias_apply m c t n)

/-- What point `t` writes back into `new_h` is block `t` of the cell's new hidden state. -/
theorem flushedH_eq (c : Dev nD) (t : Fin cfg0.N) :
    (dats m 0 c).flushed 5 t = ((cfg0.win 5).blk t).view.read (Elt Ideal) (hOf m c) := by
  have e := idx_facts t
  show (cfg0.win 5).cut (grid0.coords t) ((dats m 0 c).after 5 t) = _
  rw [after_5]
  unfold hBlock
  rw [View.canon_unit_zero hz]
  simp only [View.ld_unit_zero (S := S256x1024) hz, View.ld_unit_zero (S := S4096x2048) hz, View.ld_unit_zero (S := S1x4096) hz]
  refine funext fun (j : S256x1024.Idx) => ?_
  obtain ⟨p, q, rfl⟩ : ∃ (p : Fin 256) (q : Fin 1024), j = ix2 p q := ⟨j 0, j 1, eq_ix2 j⟩
  rw [View.read_apply]
  have hemb : ((cfg0.win 5).blk t).view.emb (ix2 p q) = (ix2 (rowOf t p) q : S4096x1024.Idx) := funext fun a => Fin.ext (by
    match a with
    | ⟨0, _⟩ => show win0_5.index t (0 : Fin 2) * 256 + 1 * p.val = t.val * 256 + p.val; omega
    | ⟨1, _⟩ => show win0_5.index t (1 : Fin 2) * 1024 + 1 * q.val = q.val; omega)
  rw [hemb]
  refine (hstore_apply (blockAt m c 0 t) (blockAt m c 1 t) (blockAt m c 3 t) (blockAt m c 4 t) (blockAt m c 2 t) p q).trans ?_
  rw [gate_at m c t p, block2_apply m c t p q]
  rfl

/-- What point `t` writes back into `new_c` is block `t` of the cell's new cell state. -/
theorem flushedC_eq (c : Dev nD) (t : Fin cfg0.N) :
    (dats m 0 c).flushed 6 t = ((cfg0.win 6).blk t).view.read (Elt Ideal) (cOf m c) := by
  have e := idx_facts t
  show (cfg0.win 6).cut (grid0.coords t) ((dats m 0 c).after 6 t) = _
  rw [after_6]
  unfold cBlock
  rw [View.canon_unit_zero hz]
  simp only [View.ld_unit_zero (S := S256x1024) hz, View.ld_unit_zero (S := S4096x2048) hz, View.ld_unit_zero (S := S1x4096) hz]
  refine funext fun (j : S256x1024.Idx) => ?_
  obtain ⟨p, q, rfl⟩ : ∃ (p : Fin 256) (q : Fin 1024), j = ix2 p q := ⟨j 0, j 1, eq_ix2 j⟩
  rw [View.read_apply]
  have hemb : ((cfg0.win 6).blk t).view.emb (ix2 p q) = (ix2 (rowOf t p) q : S4096x1024.Idx) := funext fun a => Fin.ext (by
    match a with
    | ⟨0, _⟩ => show win0_6.index t (0 : Fin 2) * 256 + 1 * p.val = t.val * 256 + p.val; omega
    | ⟨1, _⟩ => show win0_6.index t (1 : Fin 2) * 1024 + 1 * q.val = q.val; omega)
  rw [hemb]
  refine (cstore_apply (blockAt m c 0 t) (blockAt m c 1 t) (blockAt m c 3 t) (blockAt m c 4 t) (blockAt m c 2 t) p q).trans ?_
  rw [gate_at m c t p, block2_apply m c t p q]
  rfl

/-! ## The sixteen blocks tile the rows -/

theorem mem_blk5 (t : Fin cfg0.N) (i : S4096x1024.Idx) :
    i ∈ ((cfg0.win 5).blk t).view.set ↔ ∀ a : Fin 2, win0_5.index t a * S256x1024.size a ≤ (i a).val ∧ (i a).val < win0_5.index t a * S256x1024.size a + S256x1024.size a := by
  show i ∈ ((View.whole main_v6_0).slice (win0_5.rect t)).set ↔ _
  rw [View.set_slice_whole, Rect.mem_set_unit]
  exact Iff.rfl

theorem mem_blk6 (t : Fin cfg0.N) (i : S4096x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v6_1).slice (win0_6.rect t)).set ↔ _
  rw [View.set_slice_whole, Rect.mem_set_unit]
  exact Iff.rfl

/-- Row `r` is in the block of point `r / 256`. -/
theorem pointOf (i : S4096x1024.Idx) : ∃ t : Fin cfg0.N, t.val = (i 0).val / 256 :=
  ⟨⟨(i 0).val / 256, by have h0 : (i 0).val < 4096 := (i 0).isLt; rw [show cfg0.N = 16 from N_0]; omega⟩, rfl⟩

theorem cover5 (i : S4096x1024.Idx) : ∃ t : Fin cfg0.N, (cfg0.win 5).flush t = true ∧ i ∈ ((cfg0.win 5).blk t).view.set := by
  have h0 : (i 0).val < 4096 := (i 0).isLt
  have h1 : (i 1).val < 1024 := (i 1).isLt
  obtain ⟨t, ht⟩ := pointOf i
  have e := idx_facts t
  refine ⟨t, flush0_5 t, ?_⟩
  rw [mem_blk5]
  intro a
  match a with
  | ⟨0, _⟩ => show win0_5.index t (0 : Fin 2) * 256 ≤ (i 0).val ∧ (i 0).val < win0_5.index t (0 : Fin 2) * 256 + 256; omega
  | ⟨1, _⟩ => show win0_5.index t (1 : Fin 2) * 1024 ≤ (i 1).val ∧ (i 1).val < win0_5.index t (1 : Fin 2) * 1024 + 1024; omega

theorem cover6 (i : S4096x1024.Idx) : ∃ t : Fin cfg0.N, (cfg0.win 6).flush t = true ∧ i ∈ ((cfg0.win 6).blk t).view.set := by
  have h0 : (i 0).val < 4096 := (i 0).isLt
  have h1 : (i 1).val < 1024 := (i 1).isLt
  obtain ⟨t, ht⟩ := pointOf i
  have e := idx_facts t
  refine ⟨t, flush0_6 t, ?_⟩
  rw [mem_blk6]
  intro a
  match a with
  | ⟨0, _⟩ => show win0_6.index t (0 : Fin 2) * 256 ≤ (i 0).val ∧ (i 0).val < win0_6.index t (0 : Fin 2) * 256 + 256; omega
  | ⟨1, _⟩ => show win0_6.index t (1 : Fin 2) * 1024 ≤ (i 1).val ∧ (i 1).val < win0_6.index t (1 : Fin 2) * 1024 + 1024; omega

/-- The two result arrays after the run. -/
theorem finalH (c : Dev nD) : (dats m 0 c).arrAt 5 cfg0.N = hOf m c :=
  (dats m 0 c).arrAt_eq_of_cover 5 (hOf m c) (fun t _ => flushedH_eq m c t) cover5
theorem finalC (c : Dev nD) : (dats m 0 c).arrAt 6 cfg0.N = cOf m c :=
  (dats m 0 c).arrAt_eq_of_cover 6 (cOf m c) (fun t _ => flushedC_eq m c t) cover6

/-! ## The run, read -/

/-- Every weakly fair execution of the idealized kernel terminates with `new_h` and `new_c` at the cell's new states
    of its arguments, the arguments unchanged. -/
theorem run : θ_run defs (onTc (τ := τ) (main (F := Ideal))) ⟨m, fun _ => 0, ρ⟩ fun r => ∀ c : Dev nD,
      r.2.mem ((c.tc : Thread nD τ).loc main_v6_0) = hOf m c
      ∧ r.2.mem ((c.tc : Thread nD τ).loc main_v6_1) = cOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun r h c => ⟨((h c).1 5).trans (finalH m c), ((h c).1 6).trans (finalC m c), Cert.KernelIdeal.Frm.args_kept m (dats m) (dats_A m) r h c⟩)
    (run_main m ρ)

end Cert.KernelIdeal.Val

end
-- ==== Proof.RefCell.lean ====
/-
  The reference computes the cell. Its pre-activation array (4096 × 4096) is, at batch row `r` and gate column `n`,
  `Σₖ x[r,k]·W[n,k] + Σₖ h[r,k]·U[n,k] + b[n]` — the two `dot_general`s against the transposed stacked weights, and the
  stacked bias broadcast down the rows —, its sigmoids are spelt `1 / (1 + exp(−g))`, which IS the logistic function on
  the extended reals, and the rest is the cell's pointwise arithmetic on four 1024-column slices.
-/
import proofs.«129482_j47347719471523_2_alg».proof.Proof.Gen.ReferenceIdeal.Read
import proofs.«129482_j47347719471523_2_alg».proof.Proof.LstmSpec

noncomputable section

namespace Cert.ReferenceIdeal.RefCell

open Idealize.ShloMosaic Idealize.ShloMosaic.ValueIdx
open Cert.ReferenceIdeal Cert.ReferenceIdeal.Gen Cert.ReferenceIdeal.Read Cert.LstmSpec

/-- The contents of a batch × hidden array, of one gate's weight matrix, of one gate's bias, at the ideal instance. -/
abbrev Arr : Type := (⟨S4096x1024, .f32⟩ : BufTy).Contents (Elt Ideal)
abbrev Mat : Type := (⟨S1024x1024, .f32⟩ : BufTy).Contents (Elt Ideal)
abbrev Bia : Type := (⟨S1024, .f32⟩ : BufTy).Contents (Elt Ideal)

variable (x0 x1 x2 : Arr) (x3 : Mat) (x4 : Bia) (x5 x6 : Mat) (x7 : Bia) (x8 x9 : Mat) (x10 : Bia) (x11 x12 : Mat) (x13 : Bia) (x14 : Mat)

/-- `1 / (1 + exp (−g))`, in the host's operations and with the literal `1.0`, is the logistic function. -/
theorem sigmoid_spelt (g : Ideal .f32) :
    FloatOps.hostDivf (FloatOps.ofBits .f32 0x3F800000#32 : Ideal .f32)
      (FloatOps.addf (FloatOps.ofBits .f32 0x3F800000#32 : Ideal .f32) (FloatOps.hostUnary .exp (FloatOps.hostNegf g)))
      = Ideal.logistic g := by
  simp only [Ideal.hostDivf_def, Ideal.ofBits_def, Ideal.addf_def, Ideal.hostUnary_exp_def, Ideal.hostNegf_def, Ideal.negf_def, ofBits_one]
  rfl

/-- The pre-activation array at batch row `r`, gate column `n`. -/
theorem preact_apply (r n : Fin 4096) :
    val_main_v10 (F := Ideal) x0 x1 x3 x4 x5 x6 x7 x8 x9 x10 x11 x12 x13 x14 (ix2 r n)
      = gate x0 x1 (val_main_v0 (F := Ideal) x3 x6 x9 x12) (val_main_v1 (F := Ideal) x5 x8 x11 x14)
          (val_main_v2 (F := Ideal) x4 x7 x10 x13) r n := by
  rw [val_main_v10_apply, val_main_v7_apply, val_main_v4_apply, val_main_v6_apply, val_main_v9_apply, val_main_v8_apply]
  simp only [val_main_v3_apply, val_main_v5_apply]
  have e1 : ∀ k : Fin 1024, lidx_main_v4 (ix2 r n) k = ix2 r k := fun k => funext fun a => Fin.ext (by
    match a with | ⟨0, _⟩ => rfl | ⟨1, _⟩ => rfl)
  have e2 : ∀ k : Fin 1024, idx_main_v3 (ridx_main_v4 (ix2 r n) k) = ix2 n k := fun k => funext fun a => Fin.ext (by
    match a with | ⟨0, _⟩ => rfl | ⟨1, _⟩ => rfl)
  have e3 : ∀ k : Fin 1024, lidx_main_v6 (ix2 r n) k = ix2 r k := fun k => funext fun a => Fin.ext (by
    match a with | ⟨0, _⟩ => rfl | ⟨1, _⟩ => rfl)
  have e4 : ∀ k : Fin 1024, idx_main_v5 (ridx_main_v6 (ix2 r n) k) = ix2 n k := fun k => funext fun a => Fin.ext (by
    match a with | ⟨0, _⟩ => rfl | ⟨1, _⟩ => rfl)
  have e5 : idx_main_v8 (idx_main_v9 (ix2 r n)) = ix1 n := funext fun a => Fin.ext (by
    match a with | ⟨0, _⟩ => rfl)
  simp only [e1, e2, e3, e4, e5, Ideal.addf_def]
  rfl

/-- The four slices' index maps: row `i 0`, the gate's column for unit `i 1`. -/
theorem sliceI (i : S4096x1024.Idx) : idx_main_v11 i = ix2 (i 0) (colI (i 1)) := funext fun a => Fin.ext (by
  match a with | ⟨0, _⟩ => rfl | ⟨1, _⟩ => rfl)
theorem sliceO (i : S4096x1024.Idx) : idx_main_v12 i = ix2 (i 0) (colO (i 1)) := funext fun a => Fin.ext (by
  match a with | ⟨0, _⟩ => rfl | ⟨1, _⟩ => rfl)
theorem sliceF (i : S4096x1024.Idx) : idx_main_v13 i = ix2 (i 0) (colF (i 1)) := funext fun a => Fin.ext (by
  match a with | ⟨0, _⟩ => rfl | ⟨1, _⟩ => rfl)
theorem sliceC (i : S4096x1024.Idx) : idx_main_v14 i = ix2 (i 0) (colC (i 1)) := funext fun a => Fin.ext (by
  match a with | ⟨0, _⟩ => rfl | ⟨1, _⟩ => rfl)

/-- The reference's new cell state, index by index: the cell's arithmetic on the row's pre-activations. -/
theorem cstate_apply (i : S4096x1024.Idx) :
    val_main_v36 (F := Ideal) x0 x1 x2 x3 x4 x5 x6 x7 x8 x9 x10 x11 x12 x13 x14 i
      = cellC (fun n => val_main_v10 (F := Ideal) x0 x1 x3 x4 x5 x6 x7 x8 x9 x10 x11 x12 x13 x14 (ix2 (i 0) n)) (x2 i) (i 1) := by
  rw [val_main_v36_apply, val_main_v34_apply, val_main_v35_apply, val_main_v32_apply, val_main_v31_apply, val_main_cst_4_apply,
    val_main_v30_apply, val_main_v29_apply, val_main_cst_3_apply, val_main_v28_apply, val_main_v27_apply, val_main_v13_apply,
    val_main_v20_apply, val_main_v19_apply, val_main_cst_0_apply, val_main_v18_apply, val_main_v17_apply, val_main_cst_apply,
    val_main_v16_apply, val_main_v15_apply, val_main_v11_apply, val_main_v33_apply, val_main_v14_apply,
    sigmoid_spelt, sigmoid_spelt, sliceF, sliceI, sliceC]
  rfl

/-- The reference's new hidden state, index by index. -/
theorem hstate_apply (i : S4096x1024.Idx) :
    val_main_v38 (F := Ideal) x0 x1 x2 x3 x4 x5 x6 x7 x8 x9 x10 x11 x12 x13 x14 i
      = cellH (fun n => val_main_v10 (F := Ideal) x0 x1 x3 x4 x5 x6 x7 x8 x9 x10 x11 x12 x13 x14 (ix2 (i 0) n)) (x2 i) (i 1) := by
  rw [val_main_v38_apply, val_main_v37_apply, cstate_apply, val_main_v26_apply, val_main_v25_apply, val_main_cst_2_apply,
    val_main_v24_apply, val_main_v23_apply, val_main_cst_1_apply, val_main_v22_apply, val_main_v21_apply, val_main_v12_apply,
    sigmoid_spelt, sliceO]
  rfl

/-- The reference's two results are the cell's new states of its arguments, the weights and biases stacked gate by gate. -/
theorem cstate_eq :
    val_main_v36 (F := Ideal) x0 x1 x2 x3 x4 x5 x6 x7 x8 x9 x10 x11 x12 x13 x14
      = newC x0 x1 x2 (val_main_v0 (F := Ideal) x3 x6 x9 x12) (val_main_v1 (F := Ideal) x5 x8 x11 x14)
          (val_main_v2 (F := Ideal) x4 x7 x10 x13) := by
  funext i
  rw [cstate_apply]
  unfold newC
  congr 1
  funext n
  exact preact_apply x0 x1 x3 x4 x5 x6 x7 x8 x9 x10 x11 x12 x13 x14 (i 0) n

theorem hstate_eq :
    val_main_v38 (F := Ideal) x0 x1 x2 x3 x4 x5 x6 x7 x8 x9 x10 x11 x12 x13 x14
      = newH x0 x1 x2 (val_main_v0 (F := Ideal) x3 x6 x9 x12) (val_main_v1 (F := Ideal) x5 x8 x11 x14)
          (val_main_v2 (F := Ideal) x4 x7 x10 x13) := by
  funext i
  rw [hstate_apply]
  unfold newH
  congr 1
  funext n
  exact preact_apply x0 x1 x3 x4 x5 x6 x7 x8 x9 x10 x11 x12 x13 x14 (i 0) n

end Cert.ReferenceIdeal.RefCell

end
-- ==== Proof.lean ====
/-
  An LSTM cell on a batch of 4096 rows: a kernel that fuses the two gate products into ONE contraction over
  `[x | h]` (2048 columns) against `[W | U]`, sixteen row blocks of 256, against a reference that computes
  `x·Wᵀ + h·Uᵀ + b` as two products over 1024 columns each.

  On the extended reals the two programs compute one function. A change of float format is the identity there, so the
  kernel's bf16 operands are its f32 operands. The fused contraction's sum over 2048 columns is the sum of its first
  1024 terms (`x` against `W`) and of its last 1024 (`h` against `U`): a law of a commutative monoid, which needs no
  finiteness of the inputs. The kernel's `logistic` is by definition `1 / (1 + exp (−g))`, the expression the
  reference spells; `tanh` is one function on both sides; the rest is the same pointwise arithmetic on the same four
  1024-column slices of the pre-activations. Both programs stack the four gates' weights and biases by the same three
  concatenations, which are therefore never opened.

  The modules:
    LstmSpec           the cell as one function of its arguments, and the law of the split sum;
    KernelFrame,
    KernelIdealFrame   each kernel program runs to the end, faults nowhere, leaves its arguments unchanged, and leaves in
                       each result's staging buffer, at each grid point, the body's payload of the staged blocks;
    LstmPayload        that payload read at an index: the cell at that row and unit;
    KernelIdealValue   so the sixteen written blocks are the blocks of one whole-array function, which the result arrays
                       end holding;
    RefCell            the reference's two results are that function too.
-/
import proofs.«129482_j47347719471523_2_alg».proof.Defs
import proofs.«129482_j47347719471523_2_alg».proof.Proof.Gen.Kernel
import proofs.«129482_j47347719471523_2_alg».proof.Proof.Gen.KernelIdeal
import proofs.«129482_j47347719471523_2_alg».proof.Proof.Gen.ReferenceIdeal
import proofs.«129482_j47347719471523_2_alg».proof.Proof.Gen.Pre_finite_inputs
import proofs.«129482_j47347719471523_2_alg».proof.Proof.Gen.ReferenceIdeal.Run
import proofs.«129482_j47347719471523_2_alg».proof.Proof.Gen.ReferenceIdeal.Read
import proofs.«129482_j47347719471523_2_alg».proof.Proof.KernelFrame
import proofs.«129482_j47347719471523_2_alg».proof.Proof.KernelIdealFrame
import proofs.«129482_j47347719471523_2_alg».proof.Proof.KernelIdealValue
import proofs.«129482_j47347719471523_2_alg».proof.Proof.RefCell
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Frm.frame m ρ

/-- So does the idealized kernel. -/
theorem frame_ideal : Cert.frame_KernelIdeal := fun m ρ _ => Cert.KernelIdeal.Frm.frame m ρ

/-- The reference is a straight line of host operations: its run, the two results dropped. -/
theorem frame_ref : Cert.frame_ReferenceIdeal := fun m ρ _ =>
  (θ_run Cert.ReferenceIdeal.defs _ _).mono (fun _ h c => (h c).2.2) (Cert.ReferenceIdeal.Value.run (F := Ideal) m ρ)

/-- From memories agreeing on the fifteen arguments both programs end with `new_h` and `new_c` at the cell's new
    states of those arguments. -/
theorem algebraic : Cert.algebraic_KernelIdeal_ReferenceIdeal := by
  intro m ρ m' ρ' _ hagree
  refine ⟨fun c => Cert.KernelIdeal.Val.hOf m c, fun c => Cert.KernelIdeal.Val.cOf m c, Cert.KernelIdeal.Val.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10, a11, a12, a13, a14⟩ := hagree c
    rw [Cert.ReferenceIdeal.Read.val_main_v38_eq, Cert.ReferenceIdeal.RefCell.hstate_eq, a0, a1, a2, a3, a4, a5, a6, a7, a8, a9, a10, a11, a12, a13, a14]
    rfl
  · obtain ⟨a0, a1, a2, a3, a4, a5, a6, a7, a8, a9, a10, a11, a12, a13, a14⟩ := hagree c
    rw [Cert.ReferenceIdeal.Read.val_main_v36_eq, Cert.ReferenceIdeal.RefCell.cstate_eq, a0, a1, a2, a3, a4, a5, a6, a7, a8, a9, a10, a11, a12, a13, a14]
    rfl

theorem claim : Cert.Claim :=
  ⟨Cert.Kernel.Gen.facts, Cert.KernelIdeal.Gen.facts, Cert.ReferenceIdeal.Gen.facts, Cert.Pre_finite_inputs.Gen.facts,
    frame_kernel, frame_ideal, frame_ref, trivial, algebraic⟩

end Cert.Proof

end
